-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S4x1024x1024 : Shape := ⟨3, ![4, 1024, 1024]⟩
abbrev S128x256 : Shape := ⟨2, ![128, 256]⟩
abbrev S256 : Shape := ⟨1, ![256]⟩
abbrev S256x256 : Shape := ⟨2, ![256, 256]⟩
abbrev S4x256x256 : Shape := ⟨3, ![4, 256, 256]⟩
abbrev S4x256 : Shape := ⟨2, ![4, 256]⟩
abbrev S256x128 : Shape := ⟨2, ![256, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S4x256x256 .f32) (main_arg8 : FVec F S4x256 .f32) (main_arg9 : FVec F S256x128 .f32) (main_arg10 : FVec F S128 .f32) (main_v33 : IVec S_ 1) : IVec S_ 1 :=
  let main_v34 : FVec F S4x256x256 .f32 := Host.absf main_arg7
  let main_cst_12 : FVec F S_ .f32 := constant S_ .f32 0x7F800000#32
  let main_v35 : FVec F S4x256x256 .f32 := broadcastInDim S4x256x256 ![] bcast_S_S4x256x256 main_cst_12
  let main_v36 : IVec S4x256x256 1 := cmpf .olt main_v34 main_v35
  let main_c_13 : IVec S_ 1 := constantI S_ 1 1#1
  let main_v37 : IVec S_ 1 := (fun x v => Host.reduce IntOp.andi x v reducesTo_S4x256x256_S_d0_1_2 h_S_) main_v36 main_c_13
  let main_v38 : IVec S_ 1 := andi main_v33 main_v37
  let main_v39 : FVec F S4x256 .f32 := Host.absf main_arg8
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S4x256x256 .f32) (main_arg8 : FVec F S4x256 .f32) (main_arg9 : FVec F S256x128 .f32) (main_arg10 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x128 .f32) (main_arg1 : FVec F S1024x1024 .f32) (main_arg2 : FVec F S4x1024x1024 .f32) (main_arg3 : FVec F S128x256 .f32) (main_arg4 : FVec F S256 .f32) (main_arg5 : FVec F S256x256 .f32) (main_arg6 : FVec F S256 .f32) (main_arg7 : FVec F S4x256x256 .f32) (main_arg8 : FVec F S4x256 .f32) (main_arg9 : FVec F S256x128 .f32) (main_arg10 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x1024 .f32 := Host.absf main_arg2
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_v13 main_v16
-- ==== Kernel.lean ====
abbrev S1024x128 : Shape := ⟨2, ![1024, 128]⟩
abbrev S1024x1024 : Shape := ⟨2, ![1024, 1024]⟩
abbrev S4x1024x1024 : Shape := ⟨3, ![4, 1024, 1024]⟩
abbrev S128x256 : Shape := ⟨2, ![128, 256]⟩
abbrev S256 : Shape := ⟨1, ![256]⟩
abbrev S256x256 : Shape := ⟨2, ![256, 256]⟩
abbrev S4x256x256 : Shape := ⟨3, ![4, 256, 256]⟩
abbrev S4x256 : Shape := ⟨2, ![4, 256]⟩
abbrev S256x128 : Shape := ⟨2, ![256, 128]⟩
abbrev S128 : Shape := ⟨1, ![128]⟩
abbrev S1x256 : Shape := ⟨2, ![1, 256]⟩
abbrev S4x1x256 : Shape := ⟨3, ![4, 1, 256]⟩
abbrev S1x128 : Shape := ⟨2, ![1, 128]⟩
abbrev S512x1024 : Shape := ⟨2, ![512, 1024]⟩
abbrev S2x1024x512 : Shape := ⟨3, ![2, 1024, 512]⟩
abbrev S1024x256 : Shape := ⟨2, ![1024, 256]⟩
abbrev S256x1024 : Shape := ⟨2, ![256, 1024]⟩
abbrev S1x256x256 : Shape := ⟨3, ![1, 256, 256]⟩
abbrev S512x256 : Shape := ⟨2, ![512, 256]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 16
  | .vmem => 19
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S4x1024x1024, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4x256x256, .f32⟩
  | .hbm, ⟨8, _⟩ => ⟨S4x256, .f32⟩
  | .hbm, ⟨9, _⟩ => ⟨S256x128, .f32⟩
  | .hbm, ⟨10, _⟩ => ⟨S128, .f32⟩
  | .hbm, ⟨11, _⟩ => ⟨S1x256, .f32⟩
  | .hbm, ⟨12, _⟩ => ⟨S1x256, .f32⟩
  | .hbm, ⟨13, _⟩ => ⟨S4x1x256, .f32⟩
  | .hbm, ⟨14, _⟩ => ⟨S1x128, .f32⟩
  | .hbm, ⟨15, _⟩ => ⟨S1024x128, .f32⟩
  | .local _ .vmem, ⟨0, _⟩ => ⟨S1024x128, .f32⟩
  | .local _ .vmem, ⟨1, _⟩ => ⟨S512x1024, .f32⟩
  | .local _ .vmem, ⟨2, _⟩ => ⟨S512x1024, .f32⟩
  | .local _ .vmem, ⟨3, _⟩ => ⟨S2x1024x512, .f32⟩
  | .local _ .vmem, ⟨4, _⟩ => ⟨S2x1024x512, .f32⟩
  | .local _ .vmem, ⟨5, _⟩ => ⟨S2x1024x512, .f32⟩
  | .local _ .vmem, ⟨6, _⟩ => ⟨S2x1024x512, .f32⟩
  | .local _ .vmem, ⟨7, _⟩ => ⟨S128x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S4x256x256, .f32⟩
  | .local _ .vmem, ⟨12, _⟩ => ⟨S4x1x256, .f32⟩
  | .local _ .vmem, ⟨13, _⟩ => ⟨S256x128, .f32⟩
  | .local _ .vmem, ⟨14, _⟩ => ⟨S1x128, .f32⟩
  | .local _ .vmem, ⟨15, _⟩ => ⟨S1024x128, .f32⟩
  | .local _ .vmem, ⟨16, _⟩ => ⟨S1024x256, .f32⟩
  | .local _ .vmem, ⟨17, _⟩ => ⟨S1024x256, .f32⟩
  | .local _ .vmem, ⟨18, _⟩ => ⟨S256x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![2], ![false]⟩

def k0_cond4 (i : grid0.Coords) : BitVec 1 :=
  let arg0 : BitVec 32 := BitVec.ofNat 32 (i 0).val
  let c1_i32 : BitVec 32 := 1#32
  let v47 : BitVec 1 := Scalar.cmpi .eq arg0 c1_i32
  let v48 : BitVec 32 := Scalar.extui v47
  let c0_i32_31 : BitVec 32 := 0#32
  let v49 : BitVec 1 := Scalar.cmpi .ne v48 c0_i32_31
  v49

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  shapeCasts_S256_S1x256 : S256.ShapeCasts S1x256
  shapeCasts_S4x256_S4x1x256 : S4x256.ShapeCasts S4x1x256
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256x256_S1x256x256_1_0_0 : ∀ a, (![1, 0, 0] : Fin 3 → Nat) a + S1x256x256.size a ≤ S4x256x256.size a
  inb_S4x256x256_S1x256x256_2_0_0 : ∀ a, (![2, 0, 0] : Fin 3 → Nat) a + S1x256x256.size a ≤ S4x256x256.size a
  inb_S4x256x256_S1x256x256_3_0_0 : ∀ a, (![3, 0, 0] : Fin 3 → Nat) a + S1x256x256.size a ≤ S4x256x256.size a
  concatenates_S256x256_S256x256_S256x256_S256x256_S256x1024_d1 : Shape.Concatenates [S256x256, S256x256, S256x256, S256x256] S256x1024 1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  slices_S512x1024_o0_0_S512x256 : S512x1024.Slices ![0, 0] S512x256
  inb_S2x1024x512_S1x1024x512_1_0_0 : ∀ a, (![1, 0, 0] : Fin 3 → Nat) a + S1x1024x512.size a ≤ S2x1024x512.size a
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  inb_S4x1x256_S4x1x256_0_0_0 : ∀ a, (![0, 0, 0] : Fin 3 → Nat) a + S4x1x256.size a ≤ S4x1x256.size a
  h_S4x1x256 : 0 < S4x1x256.numel
  shapeCasts_S4x1x256_S4x1x256 : S4x1x256.ShapeCasts S4x1x256
  reduces_S4x1x256_S1x256 : S4x1x256.Reduces [0] S1x256
  reduces_S1024x256_S1024 : S1024x256.Reduces [1] S1024
  shapeCasts_S1024_S1024x1 : S1024.ShapeCasts S1024x1
  broadcasts_S1024x1_S1024x256 : S1024x1.Broadcasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x1024.size a
  hwx0_1 : ∀ i : grid0.Coords, EltTy.bits .f32 = 32 ∨ (Rect.block (s := S1024x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x512.size a ≤ S4x1024x1024.size a
  hwx0_2 : ∀ i : grid0.Coords, EltTy.bits .f32 = 32 ∨ (Rect.block (s := S4x1024x1024) S2x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x512.size a ≤ S4x1024x1024.size a
  hwx0_3 : ∀ i : grid0.Coords, EltTy.bits .f32 = 32 ∨ (Rect.block (s := S4x1024x1024) S2x1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256x256.size a ≤ S4x256x256.size a
  hwx0_8 : ∀ i : grid0.Coords, EltTy.bits .f32 = 32 ∨ (Rect.block (s := S4x256x256) S4x256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x1x256.size a ≤ S4x1x256.size a
  hwx0_9 : ∀ i : grid0.Coords, EltTy.bits .f32 = 32 ∨ (Rect.block (s := S4x1x256) S4x1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x128.size a ≤ S1024x128.size a
  hwx0_12 : ∀ i : grid0.Coords, EltTy.bits .f32 = 32 ∨ (Rect.block (s := S1024x128) S1024x128.size (cc0_transform_12 i) (hinb0_12 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S4x256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S4x1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1024x128.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond4 i == 1#1) | ⟨_ + 13, h⟩ => absurd h (Nat.not_lt.2 (Nat.le_add_left _ _))

class Facts : Prop extends Facts₀ where

variable [Facts]
-- ==== ReferenceIdeal.lean ====
abbrev S1024x128 : Shape := ⟨2, ![1024, 128]⟩
abbrev S1024x1024 : Shape := ⟨2, ![1024, 1024]⟩
abbrev S4x1024x1024 : Shape := ⟨3, ![4, 1024, 1024]⟩
abbrev S128x256 : Shape := ⟨2, ![128, 256]⟩
abbrev S256 : Shape := ⟨1, ![256]⟩
abbrev S256x256 : Shape := ⟨2, ![256, 256]⟩
abbrev S4x256x256 : Shape := ⟨3, ![4, 256, 256]⟩
abbrev S4x256 : Shape := ⟨2, ![4, 256]⟩
abbrev S256x128 : Shape := ⟨2, ![256, 128]⟩
abbrev S128 : Shape := ⟨1, ![128]⟩
abbrev S256x4x256 : Shape := ⟨3, ![256, 4, 256]⟩
abbrev S256x1024 : Shape := ⟨2, ![256, 1024]⟩
abbrev S1x256 : Shape := ⟨2, ![1, 256]⟩
abbrev S_ : Shape := ⟨0, ![]⟩
abbrev S1x128 : Shape := ⟨2, ![1, 128]⟩
abbrev S1024x256 : Shape := ⟨2, ![1024, 256]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 20
  | .vmem => 12
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S4x1024x1024, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4x256x256, .f32⟩
  | .hbm, ⟨8, _⟩ => ⟨S4x256, .f32⟩
  | .hbm, ⟨9, _⟩ => ⟨S256x128, .f32⟩
  | .hbm, ⟨10, _⟩ => ⟨S128, .f32⟩
  | .hbm, ⟨11, _⟩ => ⟨S256x4x256, .f32⟩
  | .hbm, ⟨12, _⟩ => ⟨S256x1024, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S1x128, .f32⟩
  | .hbm, ⟨19, _⟩ => ⟨S1024x128, .f32⟩
  | .local _ .vmem, ⟨0, _⟩ => ⟨S1024x128, .f32⟩
  | .local _ .vmem, ⟨1, _⟩ => ⟨S1024x1024, .f32⟩
  | .local _ .vmem, ⟨2, _⟩ => ⟨S4x1024x1024, .f32⟩
  | .local _ .vmem, ⟨3, _⟩ => ⟨S128x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x1024, .f32⟩
  | .local _ .vmem, ⟨8, _⟩ => ⟨S1x256, .f32⟩
  | .local _ .vmem, ⟨9, _⟩ => ⟨S256x128, .f32⟩
  | .local _ .vmem, ⟨10, _⟩ => ⟨S1x128, .f32⟩
  | .local _ .vmem, ⟨11, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  transposes_S4x256x256_S256x4x256_1_0_2 : S4x256x256.Transposes [1, 0, 2] S256x4x256
  shapeCasts_S256x4x256_S256x1024 : S256x4x256.ShapeCasts S256x1024
  shapeCasts_S256_S1x256 : S256.ShapeCasts S1x256
  reducesTo_S4x256_S256_d0 : S4x256.ReducesTo [0] S256
  h_S_ : 0 < S_.numel
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S1024x1024_S1024x1024_0_0 : ∀ a, (![0, 0] : Fin 2 → Nat) a + S1024x1024.size a ≤ S1024x1024.size a
  h_S1024x1024 : 0 < S1024x1024.numel
  reduces_S1024x256_S1024 : S1024x256.Reduces [1] S1024
  shapeCasts_S1024_S1024x1 : S1024.ShapeCasts S1024x1
  broadcasts_S1024x1_S1024x256 : S1024x1.Broadcasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  slices_S1024x1024_o0_0_S1024x256 : S1024x1024.Slices ![0, 0] S1024x256
  inb_S4x1024x1024_S1x1024x1024_1_0_0 : ∀ a, (![1, 0, 0] : Fin 3 → Nat) a + S1x1024x1024.size a ≤ S4x1024x1024.size a
  slices_S1024x1024_o0_256_S1024x256 : S1024x1024.Slices ![0, 256] S1024x256
  inb_S4x1024x1024_S1x1024x1024_2_0_0 : ∀ a, (![2, 0, 0] : Fin 3 → Nat) a + S1x1024x1024.size a ≤ S4x1024x1024.size a
  slices_S1024x1024_o0_512_S1024x256 : S1024x1024.Slices ![0, 512] S1024x256
  inb_S4x1024x1024_S1x1024x1024_3_0_0 : ∀ a, (![3, 0, 0] : Fin 3 → Nat) a + S1x1024x1024.size a ≤ S4x1024x1024.size a
  slices_S1024x1024_o0_768_S1024x256 : S1024x1024.Slices ![0, 768] S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024x1024.size a ≤ S4x1024x1024.size a
  hwx0_2 : ∀ i : grid0.Coords, EltTy.bits .f32 = 32 ∨ (Rect.block (s := S4x1024x1024) S4x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .f32 = 32 ∨ (Rect.block (s := S256x1024) S256x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S1024x128.size a
  hwx0_11 : ∀ i : grid0.Coords, EltTy.bits .f32 = 32 ∨ (Rect.block (s := S1024x128) S1024x128.size (cc0_transform_11 i) (hinb0_11 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S256x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1024x128.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.KB.Runs.lean ====
/-
  The kernel body run once per control case, on whole staging and scratch memrefs.

  The grid has two points. At the first the body fills the three scratch arrays: the product
  relu(x·Wpre + bpre)·W0, the four second-layer weight matrices laid side by side, and the first
  row block's contribution to the second-layer sum. At the second it adds the second row block's
  contribution to that sum, and from the sum, the summed biases and the head weights writes the result.
  Each run returns the pieces its stores leave, found by running the body.
-/
import proofs.«118711_g2000205832823720_pallasbulk_239_23_alg».proof.Proof.Gen.Kernel.Launch
import proofs.«118711_g2000205832823720_pallasbulk_239_23_alg».proof.Proof.Gen.Kernel.Skeleton
import proofs.«118711_g2000205832823720_pallasbulk_239_23_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The grid coordinate is zero: the branch that fills the scratch arrays, and the one that starts the sum. -/
abbrev condFirst (i : grid0.Coords) : Prop := (Scalar.cmpi .ne (Scalar.extui (Scalar.cmpi .eq (BitVec.ofNat 32 (i 0).val) 0#32)) 0#32) = 1#1
/-- The grid coordinate is positive: the branch that adds to the sum. -/
abbrev condLater (i : grid0.Coords) : Prop := (Scalar.cmpi .ne (Scalar.extui (Scalar.cmpi .sgt (BitVec.ofNat 32 (i 0).val) 0#32)) 0#32) = 1#1
/-- The grid coordinate is the last: the branch that writes the result. -/
abbrev condLast (i : grid0.Coords) : Prop := k0_cond4 i = 1#1

set_option maxHeartbeats 4000000 in
/-- The body at the first point: the inputs are read, the result buffer is left as found, and each of the
    three scratch arrays ends with the pieces the run finds. -/
noncomputable def runFirst (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole)
    (hc1 : condFirst i) (hc3 : ¬condLater i) (hc4 : ¬condLast i)
    (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) :
    Σ' (LS0 : List (View.Piece (Elt F) S1024x256 .f32)) (LS1 : List (View.Piece (Elt F) S1024x256 .f32)), { LS2 : List (View.Piece (Elt F) S256x1024 .f32) //
      ∀ (xo : Vec F S1024x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo
            ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xo E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc1 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    isplitl [HS1]; · iexists _; iexact HS1
    iexists _; iexact HS2

set_option maxHeartbeats 4000000 in
/-- The body at the last point: the inputs and the two scratch arrays it only reads are left as found, the
    running sum and the result buffer end with the pieces the run finds. -/
noncomputable def runLast (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole)
    (hc1 : ¬condFirst i) (hc3 : condLater i) (hc4 : condLast i)
    (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (xs0 : Vec F S1024x256 .f32) (xs1 : Vec F S1024x256 .f32) (xs2 : Vec F S256x1024 .f32) :
    Σ' (LO : List (View.Piece (Elt F) S1024x128 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
            ∗ owns (c : Thread nD τ) arg14 fullShare xs0 ∗ owns (c : Thread nD τ) arg15 fullShare xs1 ∗ owns (c : Thread nD τ) arg16 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
                ∗ (∃ f, arg13.view.loc (c : Thread nD τ) ↦[arg13.view.set]{fullShare} arg13.view.writes (Elt F) f LO)
                ∗ owns (c : Thread nD τ) arg14 fullShare xs0
                ∗ (∃ f, arg15.view.loc (c : Thread nD τ) ↦[arg15.view.set]{fullShare} arg15.view.writes (Elt F) f LS1)
                ∗ owns (c : Thread nD τ) arg16 fullShare xs2) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    obtain rfl := harg14.eq_unread hfs0; obtain rfl := harg15.eq_unread hfs1; obtain rfl := harg16.eq_unread hfs2
    sl_exec (disch := first | exact hc1 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _; isplitr; · ipureintro; exact harg14.read_unread _
      iexact HS0
    isplitl [HS1]; · iexists _; iexact HS1
    iexists _; isplitr; · ipureintro; exact harg16.read_unread _
    iexact HS2

end Cert.Kernel.Hand

end
-- ==== Proof.LibSharedFrame.lean ====
/-
  A pipeline region whose input windows may read one array through several windows, run as a frame.

  When two input windows of a kernel region are blocks of the same array, the array's ownership has to be
  divided between them before the region starts; everything else about the run is as for distinct arrays.
  The theorem below takes that division as a hypothesis and concludes what the frame run of distinct arrays
  concludes: every array of the region ends at the contents the write-backs compose, every other unscoped
  buffer as the region found it. The region's own invariant starts from the scoped buffers that are no
  staging buffer (the scratch arrays, at any contents) and has to give them back at the end.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

namespace Pipeline

open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a region whose windows may share arrays: from the body obligation, the layout facts that do
    not need the arrays distinct, the division of the arrays among the windows (`hsplit`), and an invariant that
    starts from the scratch buffers at any contents (`hin`) and returns them (`hout`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic

end
-- ==== Proof.KB.Frame.lean ====
/-
  The frame of the two-point kernel region: the proof data, the body obligation at each point, and the run.

  What the region carries between its two points are three scratch arrays: after the first point they hold the
  first-layer product, the first row block's share of the second-layer sum, and the flattened second-layer
  weights; after the second the sum is complete. The result array is written back after the second point only.
  Two of the input windows are blocks of the same array of snapshot adjacencies (its first and its second pair of
  snapshots), so that array's ownership is split in two halves, one per window.
-/
import proofs.«118711_g2000205832823720_pallasbulk_239_23_alg».proof.Proof.KB.Runs
import proofs.«118711_g2000205832823720_pallasbulk_239_23_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The arrays as the region finds them: after the four bias reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No reshape writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

theorem hcondFirst : ∀ t : Fin cfg0.N, condFirst (grid0.coords t) ↔ t.val = 0 :=
  (by decide +kernel : ∀ t : Fin grid0.N, condFirst (grid0.coords t) ↔ t.val = 0)
theorem hcondLater : ∀ t : Fin cfg0.N, condLater (grid0.coords t) ↔ t.val = 1 :=
  (by decide +kernel : ∀ t : Fin grid0.N, condLater (grid0.coords t) ↔ t.val = 1)
theorem hcondLast : ∀ t : Fin cfg0.N, condLast (grid0.coords t) ↔ t.val = 1 :=
  (by decide +kernel : ∀ t : Fin grid0.N, condLast (grid0.coords t) ↔ t.val = 1)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel
theorem live_11 : ∀ t : Fin cfg0.N, cfg0.idle 11 (grid0.coords t) = false := by decide +kernel
/-- At the first point the result window is idle and not written back. -/
theorem idle_12_first : ∀ t : Fin cfg0.N, t.val = 0 → cfg0.idle 12 (grid0.coords t) = true := by decide +kernel
theorem noFlush_12_first : ∀ t : Fin cfg0.N, t.val = 0 → (cfg0.win 12).flush t = false := by decide +kernel
/-- At the last point it is live. -/
theorem live_12_last : ∀ t : Fin cfg0.N, t.val = 1 → cfg0.idle 12 (grid0.coords t) = false := by decide +kernel

/-! ## The memrefs the pipeline calls the body with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4x256x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1024x128 .f32 := win0_12.stage (cfg0.slots t 12)
abbrev hs12 (t : Fin cfg0.N) : (ms12 t).IsWhole := hstage0_12 ((cfg0.slots t 12).cast nbuf0_12)
abbrev scM0 : Memref sig .tc .vmem S1024x256 .f32 := Memref.whole cc0_scratch0
abbrev scM1 : Memref sig .tc .vmem S1024x256 .f32 := Memref.whole cc0_scratch1
abbrev scM2 : Memref sig .tc .vmem S256x1024 .f32 := Memref.whole cc0_scratch2
abbrev VS0 : View sig .tc .vmem S1024x256 .f32 := scM0.view
abbrev VS1 : View sig .tc .vmem S1024x256 .f32 := scM1.view
abbrev VS2 : View sig .tc .vmem S256x1024 .f32 := scM2.view
abbrev VO : View sig .tc .vmem S1024x128 .f32 := (Memref.whole cc0_stg12_0 : Memref sig .tc .vmem S1024x128 .f32).view

/-- The scratch arrays at any contents, as owned memrefs. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

/-! ## What each run's stores cover -/

theorem coverFirst0 (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : condFirst i) (hc3 : ¬condLater i) (hc4 : ¬condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (y : S1024x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).1 S1024x256.size (by sl_kernel_rfl) y
theorem coverFirst1 (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : condFirst i) (hc3 : ¬condLater i) (hc4 : ¬condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (y : S1024x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).2.1 S1024x256.size (by sl_kernel_rfl) y
theorem coverFirst2 (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : condFirst i) (hc3 : ¬condLater i) (hc4 : ¬condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (y : S256x1024.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).2.2.1 S256x1024.size (by sl_kernel_rfl) y
theorem coverLastO (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : ¬condFirst i) (hc3 : condLater i) (hc4 : condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (xs0 : Vec F S1024x256 .f32) (xs1 : Vec F S1024x256 .f32) (xs2 : Vec F S256x1024 .f32) (y : S1024x128.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11 xs0 xs1 xs2).1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11 xs0 xs1 xs2).1 S1024x128.size (by sl_kernel_rfl) y
theorem coverLast1 (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : ¬condFirst i) (hc3 : condLater i) (hc4 : condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (xs0 : Vec F S1024x256 .f32) (xs1 : Vec F S1024x256 .f32) (xs2 : Vec F S256x1024 .f32) (y : S1024x256.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11 xs0 xs1 xs2).2.1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11 xs0 xs1 xs2).2.1 S1024x256.size (by sl_kernel_rfl) y

/-! ## The runs at the two points, and what they leave -/

theorem hF0 : condFirst (grid0.coords t0_0) := (hcondFirst t0_0).mpr rfl
theorem hL0 : ¬condLater (grid0.coords t0_0) := fun h => absurd ((hcondLater t0_0).mp h) (by decide)
theorem hE0 : ¬condLast (grid0.coords t0_0) := fun h => absurd ((hcondLast t0_0).mp h) (by decide)
theorem hF1 : ¬condFirst (grid0.coords t0_1) := fun h => absurd ((hcondFirst t0_1).mp h) (by decide)
theorem hL1 : condLater (grid0.coords t0_1) := (hcondLater t0_1).mpr rfl
theorem hE1 : condLast (grid0.coords t0_1) := (hcondLast t0_1).mpr rfl

/-- The first point's run at the pipeline's memrefs and the first point's input blocks. -/
noncomputable def run0 (c : Dev nD) :=
  runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) (ms11 t0_0) (hs11 t0_0) (ms12 t0_0) (hs12 t0_0) scM0 (Memref.isWhole_whole _) scM1 (Memref.isWhole_whole _) scM2 (Memref.isWhole_whole _) hF0 hL0 hE0 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0)

/-- After the first point: the first-layer product, -/
noncomputable def sT (c : Dev nD) : Vec F S1024x256 .f32 := VS0.read (Elt F) (VS0.writes (Elt F) VS0.junk (run0 m c).1)
/-- the first row block's share of the second-layer sum, -/
noncomputable def sAcc0 (c : Dev nD) : Vec F S1024x256 .f32 := VS1.read (Elt F) (VS1.writes (Elt F) VS1.junk (run0 m c).2.1)
/-- the second-layer weights side by side. -/
noncomputable def sW (c : Dev nD) : Vec F S256x1024 .f32 := VS2.read (Elt F) (VS2.writes (Elt F) VS2.junk (run0 m c).2.2.1)

/-- The last point's run, over what the first left. -/
noncomputable def run1 (c : Dev nD) :=
  runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) (ms8 t0_1) (hs8 t0_1) (ms9 t0_1) (hs9 t0_1) (ms10 t0_1) (hs10 t0_1) (ms11 t0_1) (hs11 t0_1) (ms12 t0_1) (hs12 t0_1) scM0 (Memref.isWhole_whole _) scM1 (Memref.isWhole_whole _) scM2 (Memref.isWhole_whole _) hF1 hL1 hE1 (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (sT m c) (sAcc0 m c) (sW m c)

/-- After the last point: the whole second-layer sum, -/
noncomputable def sAcc1 (c : Dev nD) : Vec F S1024x256 .f32 := VS1.read (Elt F) (VS1.writes (Elt F) VS1.junk (run1 m c).2.1)
/-- and the result block. -/
noncomputable def sOut (c : Dev nD) : Vec F S1024x128 .f32 := VO.read (Elt F) (VO.writes (Elt F) VO.junk (run1 m c).1)

/-! ## The region invariant, point by point -/

def PhiS (c : Dev nD) : ℕ → sProp 𝕄
  | 0 => Pipeline.scopedRest spec0 c
  | 1 => iprop(owns (c : Thread nD τ) scM0 fullShare (sT m c) ∗ owns (c : Thread nD τ) scM1 fullShare (sAcc0 m c) ∗ owns (c : Thread nD τ) scM2 fullShare (sW m c))
  | _ + 2 => iprop(owns (c : Thread nD τ) scM0 fullShare (sT m c) ∗ owns (c : Thread nD τ) scM1 fullShare (sAcc1 m c) ∗ owns (c : Thread nD τ) scM2 fullShare (sW m c))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => sOut m c
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = sOut m c := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d
theorem before_6 (c : Dev nD) (t : Fin cfg0.N) (d) : (dats m 0 c).before 6 t d = iblk m c 6 t :=
  before6_of m (dats m 0 c) (A_eq m c 6) (after_6 m c) t d
theorem before_7 (c : Dev nD) (t : Fin cfg0.N) (d) : (dats m 0 c).before 7 t d = iblk m c 7 t :=
  before7_of m (dats m 0 c) (A_eq m c 7) (after_7 m c) t d
theorem before_8 (c : Dev nD) (t : Fin cfg0.N) (d) : (dats m 0 c).before 8 t d = iblk m c 8 t :=
  before8_of m (dats m 0 c) (A_eq m c 8) (after_8 m c) t d
theorem before_9 (c : Dev nD) (t : Fin cfg0.N) (d) : (dats m 0 c).before 9 t d = iblk m c 9 t :=
  before9_of m (dats m 0 c) (A_eq m c 9) (after_9 m c) t d
theorem before_10 (c : Dev nD) (t : Fin cfg0.N) (d) : (dats m 0 c).before 10 t d = iblk m c 10 t :=
  before10_of m (dats m 0 c) (A_eq m c 10) (after_10 m c) t d
theorem before_11 (c : Dev nD) (t : Fin cfg0.N) (d) : (dats m 0 c).before 11 t d = iblk m c 11 t :=
  before11_of m (dats m 0 c) (A_eq m c 11) (after_11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem Phi_first (c : Dev nD) : (dats m 0 c).Φ (t0_0 : Fin cfg0.N).castSucc = Pipeline.scopedRest spec0 c := rfl
theorem Phi_mid (c : Dev nD) : (dats m 0 c).Φ (t0_0 : Fin cfg0.N).succ
    = iprop(owns (c : Thread nD τ) scM0 fullShare (sT m c) ∗ owns (c : Thread nD τ) scM1 fullShare (sAcc0 m c) ∗ owns (c : Thread nD τ) scM2 fullShare (sW m c)) := rfl
theorem Phi_mid' (c : Dev nD) : (dats m 0 c).Φ (t0_1 : Fin cfg0.N).castSucc
    = iprop(owns (c : Thread nD τ) scM0 fullShare (sT m c) ∗ owns (c : Thread nD τ) scM1 fullShare (sAcc0 m c) ∗ owns (c : Thread nD τ) scM2 fullShare (sW m c)) := rfl
theorem Phi_last (c : Dev nD) : (dats m 0 c).Φ (t0_1 : Fin cfg0.N).succ
    = iprop(owns (c : Thread nD τ) scM0 fullShare (sT m c) ∗ owns (c : Thread nD τ) scM1 fullShare (sAcc1 m c) ∗ owns (c : Thread nD τ) scM2 fullShare (sW m c)) := rfl

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl]
  rcases fin_N0 t with rfl | rfl
  · -- the first point
    rw [show (dats m 0 c).leavesExact 0 t0_0 = owns (c : Thread nD τ) (ms0 t0_0) fullShare ((dats m 0 c).after 0 t0_0) from by
      unfold Dat.leavesExact; rw [live_0 t0_0], after_0]
    rw [show (dats m 0 c).leavesExact 1 t0_0 = owns (c : Thread nD τ) (ms1 t0_0) fullShare ((dats m 0 c).after 1 t0_0) from by
      unfold Dat.leavesExact; rw [live_1 t0_0], after_1]
    rw [show (dats m 0 c).leavesExact 2 t0_0 = owns (c : Thread nD τ) (ms2 t0_0) fullShare ((dats m 0 c).after 2 t0_0) from by
      unfold Dat.leavesExact; rw [live_2 t0_0], after_2]
    rw [show (dats m 0 c).leavesExact 3 t0_0 = owns (c : Thread nD τ) (ms3 t0_0) fullShare ((dats m 0 c).after 3 t0_0) from by
      unfold Dat.leavesExact; rw [live_3 t0_0], after_3]
    rw [show (dats m 0 c).leavesExact 4 t0_0 = owns (c : Thread nD τ) (ms4 t0_0) fullShare ((dats m 0 c).after 4 t0_0) from by
      unfold Dat.leavesExact; rw [live_4 t0_0], after_4]
    rw [show (dats m 0 c).leavesExact 5 t0_0 = owns (c : Thread nD τ) (ms5 t0_0) fullShare ((dats m 0 c).after 5 t0_0) from by
      unfold Dat.leavesExact; rw [live_5 t0_0], after_5]
    rw [show (dats m 0 c).leavesExact 6 t0_0 = owns (c : Thread nD τ) (ms6 t0_0) fullShare ((dats m 0 c).after 6 t0_0) from by
      unfold Dat.leavesExact; rw [live_6 t0_0], after_6]
    rw [show (dats m 0 c).leavesExact 7 t0_0 = owns (c : Thread nD τ) (ms7 t0_0) fullShare ((dats m 0 c).after 7 t0_0) from by
      unfold Dat.leavesExact; rw [live_7 t0_0], after_7]
    rw [show (dats m 0 c).leavesExact 8 t0_0 = owns (c : Thread nD τ) (ms8 t0_0) fullShare ((dats m 0 c).after 8 t0_0) from by
      unfold Dat.leavesExact; rw [live_8 t0_0], after_8]
    rw [show (dats m 0 c).leavesExact 9 t0_0 = owns (c : Thread nD τ) (ms9 t0_0) fullShare ((dats m 0 c).after 9 t0_0) from by
      unfold Dat.leavesExact; rw [live_9 t0_0], after_9]
    rw [show (dats m 0 c).leavesExact 10 t0_0 = owns (c : Thread nD τ) (ms10 t0_0) fullShare ((dats m 0 c).after 10 t0_0) from by
      unfold Dat.leavesExact; rw [live_10 t0_0], after_10]
    rw [show (dats m 0 c).leavesExact 11 t0_0 = owns (c : Thread nD τ) (ms11 t0_0) fullShare ((dats m 0 c).after 11 t0_0) from by
      unfold Dat.leavesExact; rw [live_11 t0_0], after_11]
    rw [Dat.leavesExact_idle (dats m 0 c) 12 t0_0 (idle_12_first t0_0 rfl) (noFlush_12_first t0_0 rfl)]
    rw [Phi_first, Phi_mid, scopedRest_eq]
    unfold sT sAcc0 sW run0
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid0.coords t0_0) _ _ _ _ _ _ _ _ _ _ _ _ _ _ _ _ _ _ _ _ _ _ _ _ _ _ _ _ _ _ _ _ hF0 hL0 hE0 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iintro ⟨H0, H1, H2, H3, H4, H5, H6, H7, H8, H9, H10, H11, H12, ⟨%es0, HS0⟩, ⟨%es1, HS1⟩, ⟨%es2, HS2⟩⟩
    isplitl [HS0 HS1 HS2]
    · isplitl [HS0]
      · unfold owns; iexists _; isplitr
        swap; · iexact HS0
        ipureintro; exact View.read_writes_of_cover _ _ _ _ _ (coverFirst0 c _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (coverFirst1 c _ _ _ _ _ _ _ _ _ _ _ _ _ _ _ _ _ _ _ _ _ _ _ _ _ _ _ _ _ _ _ _ _ _ _ _ _ _ _ _ _ _ _ _ _ _ _ _)
      unfold owns; iexists _; isplitr
      swap; · iexact HS2
      ipureintro; exact View.read_writes_of_cover _ _ _ _ _ (coverFirst2 c _ _ _ _ _ _ _ _ _ _ _ _ _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  · -- the last point
    rw [show (dats m 0 c).leavesExact 0 t0_1 = owns (c : Thread nD τ) (ms0 t0_1) fullShare ((dats m 0 c).after 0 t0_1) from by
      unfold Dat.leavesExact; rw [live_0 t0_1], after_0]
    rw [show (dats m 0 c).leavesExact 1 t0_1 = owns (c : Thread nD τ) (ms1 t0_1) fullShare ((dats m 0 c).after 1 t0_1) from by
      unfold Dat.leavesExact; rw [live_1 t0_1], after_1]
    rw [show (dats m 0 c).leavesExact 2 t0_1 = owns (c : Thread nD τ) (ms2 t0_1) fullShare ((dats m 0 c).after 2 t0_1) from by
      unfold Dat.leavesExact; rw [live_2 t0_1], after_2]
    rw [show (dats m 0 c).leavesExact 3 t0_1 = owns (c : Thread nD τ) (ms3 t0_1) fullShare ((dats m 0 c).after 3 t0_1) from by
      unfold Dat.leavesExact; rw [live_3 t0_1], after_3]
    rw [show (dats m 0 c).leavesExact 4 t0_1 = owns (c : Thread nD τ) (ms4 t0_1) fullShare ((dats m 0 c).after 4 t0_1) from by
      unfold Dat.leavesExact; rw [live_4 t0_1], after_4]
    rw [show (dats m 0 c).leavesExact 5 t0_1 = owns (c : Thread nD τ) (ms5 t0_1) fullShare ((dats m 0 c).after 5 t0_1) from by
      unfold Dat.leavesExact; rw [live_5 t0_1], after_5]
    rw [show (dats m 0 c).leavesExact 6 t0_1 = owns (c : Thread nD τ) (ms6 t0_1) fullShare ((dats m 0 c).after 6 t0_1) from by
      unfold Dat.leavesExact; rw [live_6 t0_1], after_6]
    rw [show (dats m 0 c).leavesExact 7 t0_1 = owns (c : Thread nD τ) (ms7 t0_1) fullShare ((dats m 0 c).after 7 t0_1) from by
      unfold Dat.leavesExact; rw [live_7 t0_1], after_7]
    rw [show (dats m 0 c).leavesExact 8 t0_1 = owns (c : Thread nD τ) (ms8 t0_1) fullShare ((dats m 0 c).after 8 t0_1) from by
      unfold Dat.leavesExact; rw [live_8 t0_1], after_8]
    rw [show (dats m 0 c).leavesExact 9 t0_1 = owns (c : Thread nD τ) (ms9 t0_1) fullShare ((dats m 0 c).after 9 t0_1) from by
      unfold Dat.leavesExact; rw [live_9 t0_1], after_9]
    rw [show (dats m 0 c).leavesExact 10 t0_1 = owns (c : Thread nD τ) (ms10 t0_1) fullShare ((dats m 0 c).after 10 t0_1) from by
      unfold Dat.leavesExact; rw [live_10 t0_1], after_10]
    rw [show (dats m 0 c).leavesExact 11 t0_1 = owns (c : Thread nD τ) (ms11 t0_1) fullShare ((dats m 0 c).after 11 t0_1) from by
      unfold Dat.leavesExact; rw [live_11 t0_1], after_11]
    rw [show (dats m 0 c).leavesExact 12 t0_1 = owns (c : Thread nD τ) (ms12 t0_1) fullShare ((dats m 0 c).after 12 t0_1) from by
      unfold Dat.leavesExact; rw [live_12_last t0_1 rfl], after_12]
    rw [Phi_mid', Phi_last]
    unfold sAcc1 sOut run1
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLast c (grid0.coords t0_1) _ _ _ _ _ _ _ _ _ _ _ _ _ _ _ _ _ _ _ _ _ _ _ _ _ _ _ _ _ _ _ _ hF1 hL1 hE1 (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (sT m c) (sAcc0 m c) (sW m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%e12, H12⟩, HS0, ⟨%es1, HS1⟩, HS2⟩
    isplitl [HS0 HS1 HS2]
    · isplitl [HS0]; · iexact HS0
      isplitl [HS1]
      · unfold owns; iexists _; isplitr
        swap; · iexact HS1
        ipureintro; exact View.read_writes_of_cover _ _ _ _ _ (coverLast1 c _ _ _ _ _ _ _ _ _ _ _ _ _ _ _ _ _ _ _ _ _ _ _ _ _ _ _ _ _ _ _ _ _ _ _ _ _ _ _ _ _ _ _ _ _ _ _ _ _ _ _)
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact View.read_writes_of_cover _ _ _ _ _ (coverLastO c _ _ _ _ _ _ _ _ _ _ _ _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KB.Region.lean ====
/-
  The region's launch: the argument array read through two windows divided between them, the invariant at the
  region's ends, the run, and the frame — every argument array ends as it began.
-/
import proofs.«118711_g2000205832823720_pallasbulk_239_23_alg».proof.Proof.KB.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the scratch arrays hold anything. -/
theorem hin (c : Dev nD) : (Pipeline.scopedRest spec0 c : sProp 𝕄) ⊢ (dats m 0 c).Φ 0 :=
  (show (Pipeline.scopedRest spec0 c : sProp 𝕄) ⊢ PhiS m c 0 from Idealize.SL.BI.Entails.refl _)

/-- After the last point their named contents are forgotten. -/
theorem hout (c : Dev nD) : (dats m 0 c).Φ (Fin.last cfg0.N) ⊢ (Pipeline.scopedRest spec0 c : sProp 𝕄) := by
  rw [show (dats m 0 c).Φ (Fin.last cfg0.N) = PhiS m c 2 from by
    dsimp only [dats]; rw [Fin.val_last, show cfg0.N = 2 from N_0]]
  rw [scopedRest_eq]
  show iprop(owns (c : Thread nD τ) scM0 fullShare (sT m c) ∗ owns (c : Thread nD τ) scM1 fullShare (sAcc1 m c) ∗ owns (c : Thread nD τ) scM2 fullShare (sW m c)) ⊢ _
  iintro ⟨H0, H1, H2⟩
  isplitl [H0]; · iexists _; iexact H0
  isplitl [H1]; · iexists _; iexact H1
  iexists _; iexact H2

/-- The buffers behind the windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_v0) ↦{fullShare} V m c main_v0) ∗ (((c : Thread nD τ).loc main_arg5) ↦{fullShare} V m c main_arg5) ∗ (((c : Thread nD τ).loc main_v1) ↦{fullShare} V m c main_v1) ∗ (((c : Thread nD τ).loc main_arg7) ↦{fullShare} V m c main_arg7) ∗ (((c : Thread nD τ).loc main_v2) ↦{fullShare} V m c main_v2) ∗ (((c : Thread nD τ).loc main_arg9) ↦{fullShare} V m c main_arg9) ∗ (((c : Thread nD τ).loc main_v3) ↦{fullShare} V m c main_v3) ∗ (((c : Thread nD τ).loc main_v4) ↦{fullShare} V m c main_v4)) := by
  unfold Pipeline.arrBufs
  exact bigSep_eq_bigSepL_of_eq [main_arg0, main_arg1, main_arg2, main_arg3, main_v0, main_arg5, main_v1, main_arg7, main_v2, main_arg9, main_v3, main_v4] (by decide) (by decide) _

/-- A window's array at the share the proof data give it, from the buffer behind it at that share. -/
theorem arr_intro (c : Dev nD) (w : Fin cfg0.W) (q : PosShare TreeShare) (hq : (dats m 0 c).share w = q) :
    ((((c : Thread nD τ).loc (Pipeline.arrRef spec0 w)) ↦{q} V m c (Pipeline.arrRef spec0 w)) : sProp 𝕄)
      ⊢ (cfg0.win w).arr.view.loc (c : Thread nD τ) ↦[(cfg0.win w).arr.view.set]{(dats m 0 c).share w} (dats m 0 c).arrAt w 0 := by
  rw [hq, (arr_whole0 w).set_eq_univ]; exact Idealize.SL.BI.Entails.refl _

/-- The arrays at the region's entry: each window's at the full share, but the array of snapshot adjacencies,
    read by two windows, half to each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  iintro ⟨H0, H1, H2, H3, H4, H5, H6, H7, H8, H9, H10, H11⟩
  ihave H2' := (pointsTo_share (PosShare.mem_left_op_right fullShare)).1 $$ H2
  icases H2' with ⟨H2a, H2b⟩
  isplitl [H0]; · iapply (arr_intro m c 0 fullShare rfl); iexact H0
  isplitl [H1]; · iapply (arr_intro m c 1 fullShare rfl); iexact H1
  isplitl [H2a]; · iapply (arr_intro m c 2 fullShare.left rfl); iexact H2a
  isplitl [H2b]; · iapply (arr_intro m c 3 fullShare.right rfl); iexact H2b
  isplitl [H3]; · iapply (arr_intro m c 4 fullShare rfl); iexact H3
  isplitl [H4]; · iapply (arr_intro m c 5 fullShare rfl); iexact H4
  isplitl [H5]; · iapply (arr_intro m c 6 fullShare rfl); iexact H5
  isplitl [H6]; · iapply (arr_intro m c 7 fullShare rfl); iexact H6
  isplitl [H7]; · iapply (arr_intro m c 8 fullShare rfl); iexact H7
  isplitl [H8]; · iapply (arr_intro m c 9 fullShare rfl); iexact H8
  isplitl [H9]; · iapply (arr_intro m c 10 fullShare rfl); iexact H9
  isplitl [H10]; · iapply (arr_intro m c 11 fullShare rfl); iexact H10
  iapply (arr_intro m c 12 fullShare rfl); iexact H11

set_option backward.isDefEq.respectTransparency.types false in
/-- Every weakly fair execution of the program terminates; each array of the region ends at what the write-backs
    compose, every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

/-- From the run's post: every argument array is as it began. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c),
      ((h c).1 8).trans (((dats m 0 c).arrAt_in 8 rfl _).trans ((A_eq m c 8).trans (V_main_arg7 m c))),
      ((h c).2 main_arg8 (Pipeline.mem_restRefs_of main_arg8 (by decide) (by decide))).trans (V_main_arg8 m c),
      ((h c).1 10).trans (((dats m 0 c).arrAt_in 10 rfl _).trans ((A_eq m c 10).trans (V_main_arg9 m c))),
      ((h c).2 main_arg10 (Pipeline.mem_restRefs_of main_arg10 (by decide) (by decide))).trans (V_main_arg10 m c)⟩

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m r h c) (run_main m ρ)

end Cert.Kernel.Hand

end
-- ==== Proof.KI.Runs.lean ====
/-
  The kernel body run once per control case, on whole staging and scratch memrefs.

  The grid has two points. At the first the body fills the three scratch arrays: the product
  relu(x·Wpre + bpre)·W0, the four second-layer weight matrices laid side by side, and the first
  row block's contribution to the second-layer sum. At the second it adds the second row block's
  contribution to that sum, and from the sum, the summed biases and the head weights writes the result.
  Each run returns the pieces its stores leave, found by running the body.
-/
import proofs.«118711_g2000205832823720_pallasbulk_239_23_alg».proof.Proof.Gen.KernelIdeal.Launch
import proofs.«118711_g2000205832823720_pallasbulk_239_23_alg».proof.Proof.Gen.KernelIdeal.Skeleton
import proofs.«118711_g2000205832823720_pallasbulk_239_23_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The grid coordinate is zero: the branch that fills the scratch arrays, and the one that starts the sum. -/
abbrev condFirst (i : grid0.Coords) : Prop := (Scalar.cmpi .ne (Scalar.extui (Scalar.cmpi .eq (BitVec.ofNat 32 (i 0).val) 0#32)) 0#32) = 1#1
/-- The grid coordinate is positive: the branch that adds to the sum. -/
abbrev condLater (i : grid0.Coords) : Prop := (Scalar.cmpi .ne (Scalar.extui (Scalar.cmpi .sgt (BitVec.ofNat 32 (i 0).val) 0#32)) 0#32) = 1#1
/-- The grid coordinate is the last: the branch that writes the result. -/
abbrev condLast (i : grid0.Coords) : Prop := k0_cond4 i = 1#1

set_option maxHeartbeats 4000000 in
/-- The body at the first point: the inputs are read, the result buffer is left as found, and each of the
    three scratch arrays ends with the pieces the run finds. -/
noncomputable def runFirst (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole)
    (hc1 : condFirst i) (hc3 : ¬condLater i) (hc4 : ¬condLast i)
    (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) :
    Σ' (LS0 : List (View.Piece (Elt F) S1024x256 .f32)) (LS1 : List (View.Piece (Elt F) S1024x256 .f32)), { LS2 : List (View.Piece (Elt F) S256x1024 .f32) //
      ∀ (xo : Vec F S1024x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo
            ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo
                ∗ (∃ f, arg14.view.loc (c : Thread nD τ) ↦[arg14.view.set]{fullShare} arg14.view.writes (Elt F) f LS0)
                ∗ (∃ f, arg15.view.loc (c : Thread nD τ) ↦[arg15.view.set]{fullShare} arg15.view.writes (Elt F) f LS1)
                ∗ (∃ f, arg16.view.loc (c : Thread nD τ) ↦[arg16.view.set]{fullShare} arg16.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun xo E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc1 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    isplitl [HS1]; · iexists _; iexact HS1
    iexists _; iexact HS2

set_option maxHeartbeats 4000000 in
/-- The body at the last point: the inputs and the two scratch arrays it only reads are left as found, the
    running sum and the result buffer end with the pieces the run finds. -/
noncomputable def runLast (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole)
    (hc1 : ¬condFirst i) (hc3 : condLater i) (hc4 : condLast i)
    (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (xs0 : Vec F S1024x256 .f32) (xs1 : Vec F S1024x256 .f32) (xs2 : Vec F S256x1024 .f32) :
    Σ' (LO : List (View.Piece (Elt F) S1024x128 .f32)), { LS1 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
            ∗ owns (c : Thread nD τ) arg14 fullShare xs0 ∗ owns (c : Thread nD τ) arg15 fullShare xs1 ∗ owns (c : Thread nD τ) arg16 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
                ∗ (∃ f, arg13.view.loc (c : Thread nD τ) ↦[arg13.view.set]{fullShare} arg13.view.writes (Elt F) f LO)
                ∗ owns (c : Thread nD τ) arg14 fullShare xs0
                ∗ (∃ f, arg15.view.loc (c : Thread nD τ) ↦[arg15.view.set]{fullShare} arg15.view.writes (Elt F) f LS1)
                ∗ owns (c : Thread nD τ) arg16 fullShare xs2) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    obtain rfl := harg14.eq_unread hfs0; obtain rfl := harg15.eq_unread hfs1; obtain rfl := harg16.eq_unread hfs2
    sl_exec (disch := first | exact hc1 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _; isplitr; · ipureintro; exact harg14.read_unread _
      iexact HS0
    isplitl [HS1]; · iexists _; iexact HS1
    iexists _; isplitr; · ipureintro; exact harg16.read_unread _
    iexact HS2

end Cert.KernelIdeal.Hand

end
-- ==== Proof.KI.Frame.lean ====
/-
  The frame of the two-point kernel region: the proof data, the body obligation at each point, and the run.

  What the region carries between its two points are three scratch arrays: after the first point they hold the
  first-layer product, the first row block's share of the second-layer sum, and the flattened second-layer
  weights; after the second the sum is complete. The result array is written back after the second point only.
  Two of the input windows are blocks of the same array of snapshot adjacencies (its first and its second pair of
  snapshots), so that array's ownership is split in two halves, one per window.
-/
import proofs.«118711_g2000205832823720_pallasbulk_239_23_alg».proof.Proof.KI.Runs
import proofs.«118711_g2000205832823720_pallasbulk_239_23_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The arrays as the region finds them: after the four bias reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No reshape writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

theorem hcondFirst : ∀ t : Fin cfg0.N, condFirst (grid0.coords t) ↔ t.val = 0 :=
  (by decide +kernel : ∀ t : Fin grid0.N, condFirst (grid0.coords t) ↔ t.val = 0)
theorem hcondLater : ∀ t : Fin cfg0.N, condLater (grid0.coords t) ↔ t.val = 1 :=
  (by decide +kernel : ∀ t : Fin grid0.N, condLater (grid0.coords t) ↔ t.val = 1)
theorem hcondLast : ∀ t : Fin cfg0.N, condLast (grid0.coords t) ↔ t.val = 1 :=
  (by decide +kernel : ∀ t : Fin grid0.N, condLast (grid0.coords t) ↔ t.val = 1)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel
theorem live_11 : ∀ t : Fin cfg0.N, cfg0.idle 11 (grid0.coords t) = false := by decide +kernel
/-- At the first point the result window is idle and not written back. -/
theorem idle_12_first : ∀ t : Fin cfg0.N, t.val = 0 → cfg0.idle 12 (grid0.coords t) = true := by decide +kernel
theorem noFlush_12_first : ∀ t : Fin cfg0.N, t.val = 0 → (cfg0.win 12).flush t = false := by decide +kernel
/-- At the last point it is live. -/
theorem live_12_last : ∀ t : Fin cfg0.N, t.val = 1 → cfg0.idle 12 (grid0.coords t) = false := by decide +kernel

/-! ## The memrefs the pipeline calls the body with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4x256x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1024x128 .f32 := win0_12.stage (cfg0.slots t 12)
abbrev hs12 (t : Fin cfg0.N) : (ms12 t).IsWhole := hstage0_12 ((cfg0.slots t 12).cast nbuf0_12)
abbrev scM0 : Memref sig .tc .vmem S1024x256 .f32 := Memref.whole cc0_scratch0
abbrev scM1 : Memref sig .tc .vmem S1024x256 .f32 := Memref.whole cc0_scratch1
abbrev scM2 : Memref sig .tc .vmem S256x1024 .f32 := Memref.whole cc0_scratch2
abbrev VS0 : View sig .tc .vmem S1024x256 .f32 := scM0.view
abbrev VS1 : View sig .tc .vmem S1024x256 .f32 := scM1.view
abbrev VS2 : View sig .tc .vmem S256x1024 .f32 := scM2.view
abbrev VO : View sig .tc .vmem S1024x128 .f32 := (Memref.whole cc0_stg12_0 : Memref sig .tc .vmem S1024x128 .f32).view

/-- The scratch arrays at any contents, as owned memrefs. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

/-! ## What each run's stores cover -/

theorem coverFirst0 (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : condFirst i) (hc3 : ¬condLater i) (hc4 : ¬condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (y : S1024x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).1 S1024x256.size (by sl_kernel_rfl) y
theorem coverFirst1 (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : condFirst i) (hc3 : ¬condLater i) (hc4 : ¬condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (y : S1024x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).2.1 S1024x256.size (by sl_kernel_rfl) y
theorem coverFirst2 (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : condFirst i) (hc3 : ¬condLater i) (hc4 : ¬condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (y : S256x1024.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11).2.2.1 S256x1024.size (by sl_kernel_rfl) y
theorem coverLastO (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : ¬condFirst i) (hc3 : condLater i) (hc4 : condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (xs0 : Vec F S1024x256 .f32) (xs1 : Vec F S1024x256 .f32) (xs2 : Vec F S256x1024 .f32) (y : S1024x128.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11 xs0 xs1 xs2).1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11 xs0 xs1 xs2).1 S1024x128.size (by sl_kernel_rfl) y
theorem coverLast1 (c : Dev nD) (i : grid0.Coords) (arg1 : Memref sig .tc .vmem S1024x128 .f32) (harg1 : arg1.IsWhole) (arg2 : Memref sig .tc .vmem S512x1024 .f32) (harg2 : arg2.IsWhole) (arg3 : Memref sig .tc .vmem S2x1024x512 .f32) (harg3 : arg3.IsWhole) (arg4 : Memref sig .tc .vmem S2x1024x512 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S4x256x256 .f32) (harg9 : arg9.IsWhole) (arg10 : Memref sig .tc .vmem S4x1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S256x1024 .f32) (harg16 : arg16.IsWhole) (hc1 : ¬condFirst i) (hc3 : condLater i) (hc4 : condLast i) (x0 : Vec F S1024x128 .f32) (x1 : Vec F S512x1024 .f32) (x2 : Vec F S2x1024x512 .f32) (x3 : Vec F S2x1024x512 .f32) (x4 : Vec F S128x256 .f32) (x5 : Vec F S1x256 .f32) (x6 : Vec F S256x256 .f32) (x7 : Vec F S1x256 .f32) (x8 : Vec F S4x256x256 .f32) (x9 : Vec F S4x1x256 .f32) (x10 : Vec F S256x128 .f32) (x11 : Vec F S1x128 .f32) (xs0 : Vec F S1024x256 .f32) (xs1 : Vec F S1024x256 .f32) (xs2 : Vec F S256x1024 .f32) (y : S1024x256.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11 xs0 xs1 xs2).2.1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc3 hc4 x0 x1 x2 x3 x4 x5 x6 x7 x8 x9 x10 x11 xs0 xs1 xs2).2.1 S1024x256.size (by sl_kernel_rfl) y

/-! ## The runs at the two points, and what they leave -/

theorem hF0 : condFirst (grid0.coords t0_0) := (hcondFirst t0_0).mpr rfl
theorem hL0 : ¬condLater (grid0.coords t0_0) := fun h => absurd ((hcondLater t0_0).mp h) (by decide)
theorem hE0 : ¬condLast (grid0.coords t0_0) := fun h => absurd ((hcondLast t0_0).mp h) (by decide)
theorem hF1 : ¬condFirst (grid0.coords t0_1) := fun h => absurd ((hcondFirst t0_1).mp h) (by decide)
theorem hL1 : condLater (grid0.coords t0_1) := (hcondLater t0_1).mpr rfl
theorem hE1 : condLast (grid0.coords t0_1) := (hcondLast t0_1).mpr rfl

/-- The first point's run at the pipeline's memrefs and the first point's input blocks. -/
noncomputable def run0 (c : Dev nD) :=
  runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) (ms11 t0_0) (hs11 t0_0) (ms12 t0_0) (hs12 t0_0) scM0 (Memref.isWhole_whole _) scM1 (Memref.isWhole_whole _) scM2 (Memref.isWhole_whole _) hF0 hL0 hE0 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0)

/-- After the first point: the first-layer product, -/
noncomputable def sT (c : Dev nD) : Vec F S1024x256 .f32 := VS0.read (Elt F) (VS0.writes (Elt F) VS0.junk (run0 m c).1)
/-- the first row block's share of the second-layer sum, -/
noncomputable def sAcc0 (c : Dev nD) : Vec F S1024x256 .f32 := VS1.read (Elt F) (VS1.writes (Elt F) VS1.junk (run0 m c).2.1)
/-- the second-layer weights side by side. -/
noncomputable def sW (c : Dev nD) : Vec F S256x1024 .f32 := VS2.read (Elt F) (VS2.writes (Elt F) VS2.junk (run0 m c).2.2.1)

/-- The last point's run, over what the first left. -/
noncomputable def run1 (c : Dev nD) :=
  runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) (ms8 t0_1) (hs8 t0_1) (ms9 t0_1) (hs9 t0_1) (ms10 t0_1) (hs10 t0_1) (ms11 t0_1) (hs11 t0_1) (ms12 t0_1) (hs12 t0_1) scM0 (Memref.isWhole_whole _) scM1 (Memref.isWhole_whole _) scM2 (Memref.isWhole_whole _) hF1 hL1 hE1 (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (sT m c) (sAcc0 m c) (sW m c)

/-- After the last point: the whole second-layer sum, -/
noncomputable def sAcc1 (c : Dev nD) : Vec F S1024x256 .f32 := VS1.read (Elt F) (VS1.writes (Elt F) VS1.junk (run1 m c).2.1)
/-- and the result block. -/
noncomputable def sOut (c : Dev nD) : Vec F S1024x128 .f32 := VO.read (Elt F) (VO.writes (Elt F) VO.junk (run1 m c).1)

/-! ## The region invariant, point by point -/

def PhiS (c : Dev nD) : ℕ → sProp 𝕄
  | 0 => Pipeline.scopedRest spec0 c
  | 1 => iprop(owns (c : Thread nD τ) scM0 fullShare (sT m c) ∗ owns (c : Thread nD τ) scM1 fullShare (sAcc0 m c) ∗ owns (c : Thread nD τ) scM2 fullShare (sW m c))
  | _ + 2 => iprop(owns (c : Thread nD τ) scM0 fullShare (sT m c) ∗ owns (c : Thread nD τ) scM1 fullShare (sAcc1 m c) ∗ owns (c : Thread nD τ) scM2 fullShare (sW m c))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => sOut m c
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = sOut m c := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d
theorem before_6 (c : Dev nD) (t : Fin cfg0.N) (d) : (dats m 0 c).before 6 t d = iblk m c 6 t :=
  before6_of m (dats m 0 c) (A_eq m c 6) (after_6 m c) t d
theorem before_7 (c : Dev nD) (t : Fin cfg0.N) (d) : (dats m 0 c).before 7 t d = iblk m c 7 t :=
  before7_of m (dats m 0 c) (A_eq m c 7) (after_7 m c) t d
theorem before_8 (c : Dev nD) (t : Fin cfg0.N) (d) : (dats m 0 c).before 8 t d = iblk m c 8 t :=
  before8_of m (dats m 0 c) (A_eq m c 8) (after_8 m c) t d
theorem before_9 (c : Dev nD) (t : Fin cfg0.N) (d) : (dats m 0 c).before 9 t d = iblk m c 9 t :=
  before9_of m (dats m 0 c) (A_eq m c 9) (after_9 m c) t d
theorem before_10 (c : Dev nD) (t : Fin cfg0.N) (d) : (dats m 0 c).before 10 t d = iblk m c 10 t :=
  before10_of m (dats m 0 c) (A_eq m c 10) (after_10 m c) t d
theorem before_11 (c : Dev nD) (t : Fin cfg0.N) (d) : (dats m 0 c).before 11 t d = iblk m c 11 t :=
  before11_of m (dats m 0 c) (A_eq m c 11) (after_11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem Phi_first (c : Dev nD) : (dats m 0 c).Φ (t0_0 : Fin cfg0.N).castSucc = Pipeline.scopedRest spec0 c := rfl
theorem Phi_mid (c : Dev nD) : (dats m 0 c).Φ (t0_0 : Fin cfg0.N).succ
    = iprop(owns (c : Thread nD τ) scM0 fullShare (sT m c) ∗ owns (c : Thread nD τ) scM1 fullShare (sAcc0 m c) ∗ owns (c : Thread nD τ) scM2 fullShare (sW m c)) := rfl
theorem Phi_mid' (c : Dev nD) : (dats m 0 c).Φ (t0_1 : Fin cfg0.N).castSucc
    = iprop(owns (c : Thread nD τ) scM0 fullShare (sT m c) ∗ owns (c : Thread nD τ) scM1 fullShare (sAcc0 m c) ∗ owns (c : Thread nD τ) scM2 fullShare (sW m c)) := rfl
theorem Phi_last (c : Dev nD) : (dats m 0 c).Φ (t0_1 : Fin cfg0.N).succ
    = iprop(owns (c : Thread nD τ) scM0 fullShare (sT m c) ∗ owns (c : Thread nD τ) scM1 fullShare (sAcc1 m c) ∗ owns (c : Thread nD τ) scM2 fullShare (sW m c)) := rfl

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl]
  rcases fin_N0 t with rfl | rfl
  · -- the first point
    rw [show (dats m 0 c).leavesExact 0 t0_0 = owns (c : Thread nD τ) (ms0 t0_0) fullShare ((dats m 0 c).after 0 t0_0) from by
      unfold Dat.leavesExact; rw [live_0 t0_0], after_0]
    rw [show (dats m 0 c).leavesExact 1 t0_0 = owns (c : Thread nD τ) (ms1 t0_0) fullShare ((dats m 0 c).after 1 t0_0) from by
      unfold Dat.leavesExact; rw [live_1 t0_0], after_1]
    rw [show (dats m 0 c).leavesExact 2 t0_0 = owns (c : Thread nD τ) (ms2 t0_0) fullShare ((dats m 0 c).after 2 t0_0) from by
      unfold Dat.leavesExact; rw [live_2 t0_0], after_2]
    rw [show (dats m 0 c).leavesExact 3 t0_0 = owns (c : Thread nD τ) (ms3 t0_0) fullShare ((dats m 0 c).after 3 t0_0) from by
      unfold Dat.leavesExact; rw [live_3 t0_0], after_3]
    rw [show (dats m 0 c).leavesExact 4 t0_0 = owns (c : Thread nD τ) (ms4 t0_0) fullShare ((dats m 0 c).after 4 t0_0) from by
      unfold Dat.leavesExact; rw [live_4 t0_0], after_4]
    rw [show (dats m 0 c).leavesExact 5 t0_0 = owns (c : Thread nD τ) (ms5 t0_0) fullShare ((dats m 0 c).after 5 t0_0) from by
      unfold Dat.leavesExact; rw [live_5 t0_0], after_5]
    rw [show (dats m 0 c).leavesExact 6 t0_0 = owns (c : Thread nD τ) (ms6 t0_0) fullShare ((dats m 0 c).after 6 t0_0) from by
      unfold Dat.leavesExact; rw [live_6 t0_0], after_6]
    rw [show (dats m 0 c).leavesExact 7 t0_0 = owns (c : Thread nD τ) (ms7 t0_0) fullShare ((dats m 0 c).after 7 t0_0) from by
      unfold Dat.leavesExact; rw [live_7 t0_0], after_7]
    rw [show (dats m 0 c).leavesExact 8 t0_0 = owns (c : Thread nD τ) (ms8 t0_0) fullShare ((dats m 0 c).after 8 t0_0) from by
      unfold Dat.leavesExact; rw [live_8 t0_0], after_8]
    rw [show (dats m 0 c).leavesExact 9 t0_0 = owns (c : Thread nD τ) (ms9 t0_0) fullShare ((dats m 0 c).after 9 t0_0) from by
      unfold Dat.leavesExact; rw [live_9 t0_0], after_9]
    rw [show (dats m 0 c).leavesExact 10 t0_0 = owns (c : Thread nD τ) (ms10 t0_0) fullShare ((dats m 0 c).after 10 t0_0) from by
      unfold Dat.leavesExact; rw [live_10 t0_0], after_10]
    rw [show (dats m 0 c).leavesExact 11 t0_0 = owns (c : Thread nD τ) (ms11 t0_0) fullShare ((dats m 0 c).after 11 t0_0) from by
      unfold Dat.leavesExact; rw [live_11 t0_0], after_11]
    rw [Dat.leavesExact_idle (dats m 0 c) 12 t0_0 (idle_12_first t0_0 rfl) (noFlush_12_first t0_0 rfl)]
    rw [Phi_first, Phi_mid, scopedRest_eq]
    unfold sT sAcc0 sW run0
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid0.coords t0_0) _ _ _ _ _ _ _ _ _ _ _ _ _ _ _ _ _ _ _ _ _ _ _ _ _ _ _ _ _ _ _ _ hF0 hL0 hE0 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iintro ⟨H0, H1, H2, H3, H4, H5, H6, H7, H8, H9, H10, H11, H12, ⟨%es0, HS0⟩, ⟨%es1, HS1⟩, ⟨%es2, HS2⟩⟩
    isplitl [HS0 HS1 HS2]
    · isplitl [HS0]
      · unfold owns; iexists _; isplitr
        swap; · iexact HS0
        ipureintro; exact View.read_writes_of_cover _ _ _ _ _ (coverFirst0 c _ _ _ _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (coverFirst1 c _ _ _ _ _ _ _ _ _ _ _ _ _ _ _ _ _ _ _ _ _ _ _ _ _ _ _ _ _ _ _ _ _ _ _ _ _ _ _ _ _ _ _ _ _ _ _ _)
      unfold owns; iexists _; isplitr
      swap; · iexact HS2
      ipureintro; exact View.read_writes_of_cover _ _ _ _ _ (coverFirst2 c _ _ _ _ _ _ _ _ _ _ _ _ _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  · -- the last point
    rw [show (dats m 0 c).leavesExact 0 t0_1 = owns (c : Thread nD τ) (ms0 t0_1) fullShare ((dats m 0 c).after 0 t0_1) from by
      unfold Dat.leavesExact; rw [live_0 t0_1], after_0]
    rw [show (dats m 0 c).leavesExact 1 t0_1 = owns (c : Thread nD τ) (ms1 t0_1) fullShare ((dats m 0 c).after 1 t0_1) from by
      unfold Dat.leavesExact; rw [live_1 t0_1], after_1]
    rw [show (dats m 0 c).leavesExact 2 t0_1 = owns (c : Thread nD τ) (ms2 t0_1) fullShare ((dats m 0 c).after 2 t0_1) from by
      unfold Dat.leavesExact; rw [live_2 t0_1], after_2]
    rw [show (dats m 0 c).leavesExact 3 t0_1 = owns (c : Thread nD τ) (ms3 t0_1) fullShare ((dats m 0 c).after 3 t0_1) from by
      unfold Dat.leavesExact; rw [live_3 t0_1], after_3]
    rw [show (dats m 0 c).leavesExact 4 t0_1 = owns (c : Thread nD τ) (ms4 t0_1) fullShare ((dats m 0 c).after 4 t0_1) from by
      unfold Dat.leavesExact; rw [live_4 t0_1], after_4]
    rw [show (dats m 0 c).leavesExact 5 t0_1 = owns (c : Thread nD τ) (ms5 t0_1) fullShare ((dats m 0 c).after 5 t0_1) from by
      unfold Dat.leavesExact; rw [live_5 t0_1], after_5]
    rw [show (dats m 0 c).leavesExact 6 t0_1 = owns (c : Thread nD τ) (ms6 t0_1) fullShare ((dats m 0 c).after 6 t0_1) from by
      unfold Dat.leavesExact; rw [live_6 t0_1], after_6]
    rw [show (dats m 0 c).leavesExact 7 t0_1 = owns (c : Thread nD τ) (ms7 t0_1) fullShare ((dats m 0 c).after 7 t0_1) from by
      unfold Dat.leavesExact; rw [live_7 t0_1], after_7]
    rw [show (dats m 0 c).leavesExact 8 t0_1 = owns (c : Thread nD τ) (ms8 t0_1) fullShare ((dats m 0 c).after 8 t0_1) from by
      unfold Dat.leavesExact; rw [live_8 t0_1], after_8]
    rw [show (dats m 0 c).leavesExact 9 t0_1 = owns (c : Thread nD τ) (ms9 t0_1) fullShare ((dats m 0 c).after 9 t0_1) from by
      unfold Dat.leavesExact; rw [live_9 t0_1], after_9]
    rw [show (dats m 0 c).leavesExact 10 t0_1 = owns (c : Thread nD τ) (ms10 t0_1) fullShare ((dats m 0 c).after 10 t0_1) from by
      unfold Dat.leavesExact; rw [live_10 t0_1], after_10]
    rw [show (dats m 0 c).leavesExact 11 t0_1 = owns (c : Thread nD τ) (ms11 t0_1) fullShare ((dats m 0 c).after 11 t0_1) from by
      unfold Dat.leavesExact; rw [live_11 t0_1], after_11]
    rw [show (dats m 0 c).leavesExact 12 t0_1 = owns (c : Thread nD τ) (ms12 t0_1) fullShare ((dats m 0 c).after 12 t0_1) from by
      unfold Dat.leavesExact; rw [live_12_last t0_1 rfl], after_12]
    rw [Phi_mid', Phi_last]
    unfold sAcc1 sOut run1
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLast c (grid0.coords t0_1) _ _ _ _ _ _ _ _ _ _ _ _ _ _ _ _ _ _ _ _ _ _ _ _ _ _ _ _ _ _ _ _ hF1 hL1 hE1 (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) (sT m c) (sAcc0 m c) (sW m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%e12, H12⟩, HS0, ⟨%es1, HS1⟩, HS2⟩
    isplitl [HS0 HS1 HS2]
    · isplitl [HS0]; · iexact HS0
      isplitl [HS1]
      · unfold owns; iexists _; isplitr
        swap; · iexact HS1
        ipureintro; exact View.read_writes_of_cover _ _ _ _ _ (coverLast1 c _ _ _ _ _ _ _ _ _ _ _ _ _ _ _ _ _ _ _ _ _ _ _ _ _ _ _ _ _ _ _ _ _ _ _ _ _ _ _ _ _ _ _ _ _ _ _ _ _ _ _)
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact View.read_writes_of_cover _ _ _ _ _ (coverLastO c _ _ _ _ _ _ _ _ _ _ _ _ _ _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Named.lean ====
/-
  What the scratch arrays and the result buffer hold after each point, as the body's arithmetic of the input blocks.

  Each array is stored once per point through its whole rectangle, so what it holds afterwards is the stored
  value; a load of the whole array after such a store reads that value back.
-/
import proofs.«118711_g2000205832823720_pallasbulk_239_23_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem hz2 : (![0, 0] : Fin 2 → Nat) = fun _ => 0 := by funext a; fin_cases a <;> rfl
theorem hz3 : (![0, 0, 0] : Fin 3 → Nat) = fun _ => 0 := by funext a; fin_cases a <;> rfl

/-- One snapshot's rectangle of a two-snapshot block of adjacencies. -/
abbrev rA (s : Nat) (h : ∀ a : Fin 3, (![s, 0, 0] : Fin 3 → Nat) a + S1x1024x512.size a ≤ S2x1024x512.size a) : Rect S2x1024x512 :=
  Rect.unit (s := S2x1024x512) ![s, 0, 0] S1x1024x512.size h
/-- One snapshot's rectangle of the four second-layer weight matrices. -/
abbrev rW (s : Nat) (h : ∀ a : Fin 3, (![s, 0, 0] : Fin 3 → Nat) a + S1x256x256.size a ≤ S4x256x256.size a) : Rect S4x256x256 :=
  Rect.unit (s := S4x256x256) ![s, 0, 0] S1x256x256.size h

/-- The first-layer product after the first point. -/
theorem sT_eq (c : Dev nD) : sT m c = k0_pay5 (iblk m c 0 t0_0) (iblk m c 4 t0_0) (iblk m c 5 t0_0) (iblk m c 6 t0_0) := by
  unfold sT run0
  rw [View.read_writes_eq_canon _ _ _ (coverFirst0 c _ _ _ _ _ _ _ _ _ _ _ _ _ _ _ _ _ _ _ _ _ _ _ _ _ _ _ _ _ _ _ _ _ _ _ _ _ _ _ _ _ _ _ _ _ _ _ _)]
  unfold runFirst
  dsimp only
  sl_unfold_words
  rw [View.canon_unit_zero hz2]
  simp only [View.readAt_eq_ld, Memref.IsWhole.read_unread, View.ld_unit_zero (S := S1024x128) hz2, View.ld_unit_zero (S := S128x256) hz2, View.ld_unit_zero (S := S1x256) hz2, View.ld_unit_zero (S := S256x256) hz2]

/-- The second-layer weights side by side after the first point. -/
theorem sW_eq (c : Dev nD) : sW m c = k0_pay6 (View.ld (iblk m c 8 t0_0) (rW 0 inb_S4x256x256_S1x256x256_0_0_0)) (View.ld (iblk m c 8 t0_0) (rW 1 inb_S4x256x256_S1x256x256_1_0_0))
    (View.ld (iblk m c 8 t0_0) (rW 2 inb_S4x256x256_S1x256x256_2_0_0)) (View.ld (iblk m c 8 t0_0) (rW 3 inb_S4x256x256_S1x256x256_3_0_0)) := by
  unfold sW run0
  rw [View.read_writes_eq_canon _ _ _ (coverFirst2 c _ _ _ _ _ _ _ _ _ _ _ _ _ _ _ _ _ _ _ _ _ _ _ _ _ _ _ _ _ _ _ _ _ _ _ _ _ _ _ _ _ _ _ _ _ _ _ _)]
  unfold runFirst
  dsimp only
  sl_unfold_words
  rw [View.canon_unit_zero hz2]
  simp only [View.readAt_eq_ld, Memref.IsWhole.read_unread]
  rfl

/-- The first row block's share of the second-layer sum after the first point. -/
theorem sAcc0_eq (c : Dev nD) : sAcc0 m c = k0_pay2 (k0_pay7 (iblk m c 1 t0_0) (sT m c) (iblk m c 7 t0_0) (sW m c))
    (k0_pay8 (iblk m c 1 t0_0) (sT m c) (iblk m c 7 t0_0) (sW m c) (View.ld (iblk m c 2 t0_0) (rA 0 inb_S2x1024x512_S1x1024x512_0_0_0)) (View.ld (iblk m c 2 t0_0) (rA 1 inb_S2x1024x512_S1x1024x512_1_0_0)))
    (View.ld (iblk m c 3 t0_0) (rA 0 inb_S2x1024x512_S1x1024x512_0_0_0)) (View.ld (iblk m c 3 t0_0) (rA 1 inb_S2x1024x512_S1x1024x512_1_0_0)) := by
  rw [sT_eq m c, sW_eq m c]
  unfold sAcc0 run0
  rw [View.read_writes_eq_canon _ _ _ (coverFirst1 c _ _ _ _ _ _ _ _ _ _ _ _ _ _ _ _ _ _ _ _ _ _ _ _ _ _ _ _ _ _ _ _ _ _ _ _ _ _ _ _ _ _ _ _ _ _ _ _)]
  unfold runFirst
  dsimp only
  sl_unfold_words
  rw [View.canon_unit_zero hz2]
  simp only [View.readAt_eq_ld, Memref.IsWhole.read_unread, View.ld_unit_zero (S := S512x1024) hz2, View.ld_unit_zero (S := S1x256) hz2,
    View.readCov_unit_zero (S := S1024x256) scM0.view hz2, View.readCov_unit_zero (S := S256x1024) scM2.view hz2,
    View.ld_unit_zero (S := S1024x128) hz2, View.ld_unit_zero (S := S128x256) hz2, View.ld_unit_zero (S := S256x256) hz2]
  rfl

/-- The whole second-layer sum after the last point. -/
theorem sAcc1_eq (c : Dev nD) : sAcc1 m c = k0_pay3 (k0_pay7 (iblk m c 1 t0_1) (sT m c) (iblk m c 7 t0_1) (sW m c))
    (k0_pay8 (iblk m c 1 t0_1) (sT m c) (iblk m c 7 t0_1) (sW m c) (View.ld (iblk m c 2 t0_1) (rA 0 inb_S2x1024x512_S1x1024x512_0_0_0)) (View.ld (iblk m c 2 t0_1) (rA 1 inb_S2x1024x512_S1x1024x512_1_0_0)))
    (View.ld (iblk m c 3 t0_1) (rA 0 inb_S2x1024x512_S1x1024x512_0_0_0)) (View.ld (iblk m c 3 t0_1) (rA 1 inb_S2x1024x512_S1x1024x512_1_0_0)) (sAcc0 m c) := by
  unfold sAcc1 run1
  rw [View.read_writes_eq_canon _ _ _ (coverLast1 c _ _ _ _ _ _ _ _ _ _ _ _ _ _ _ _ _ _ _ _ _ _ _ _ _ _ _ _ _ _ _ _ _ _ _ _ _ _ _ _ _ _ _ _ _ _ _ _ _ _ _)]
  unfold runLast
  dsimp only
  sl_unfold_words
  rw [View.canon_unit_zero hz2]
  have r0 : View.read (Elt F) (View.whole cc0_scratch0 : View sig .tc .vmem S1024x256 .f32) ((Memref.isWhole_whole _ : scM0.IsWhole).unread (sT m c)) = sT m c :=
    (Memref.isWhole_whole _ : scM0.IsWhole).read_unread (sT m c)
  have r1 : View.read (Elt F) (View.whole cc0_scratch1 : View sig .tc .vmem S1024x256 .f32) ((Memref.isWhole_whole _ : scM1.IsWhole).unread (sAcc0 m c)) = sAcc0 m c :=
    (Memref.isWhole_whole _ : scM1.IsWhole).read_unread (sAcc0 m c)
  have r2 : View.read (Elt F) (View.whole cc0_scratch2 : View sig .tc .vmem S256x1024 .f32) ((Memref.isWhole_whole _ : scM2.IsWhole).unread (sW m c)) = sW m c :=
    (Memref.isWhole_whole _ : scM2.IsWhole).read_unread (sW m c)
  simp only [View.readAt_eq_ld, Memref.IsWhole.read_unread, View.ld_unit_zero (S := S512x1024) hz2, View.ld_unit_zero (S := S1x256) hz2,
    View.ld_unit_zero (S := S1024x256) hz2, View.ld_unit_zero (S := S256x1024) hz2, r0, r1, r2]
  rfl

/-- The result block after the last point. -/
theorem sOut_eq (c : Dev nD) : sOut m c = k0_pay4 (iblk m c 9 t0_1) (sAcc1 m c) (iblk m c 10 t0_1) (iblk m c 11 t0_1) := by
  rw [sAcc1_eq m c]
  unfold sOut run1
  rw [View.read_writes_eq_canon _ _ _ (coverLastO c _ _ _ _ _ _ _ _ _ _ _ _ _ _ _ _ _ _ _ _ _ _ _ _ _ _ _ _ _ _ _ _ _ _ _ _ _ _ _ _ _ _ _ _ _ _ _ _ _ _ _)]
  unfold runLast
  dsimp only
  sl_unfold_words
  rw [View.canon_unit_zero hz2]
  have r0 : View.read (Elt F) (View.whole cc0_scratch0 : View sig .tc .vmem S1024x256 .f32) ((Memref.isWhole_whole _ : scM0.IsWhole).unread (sT m c)) = sT m c :=
    (Memref.isWhole_whole _ : scM0.IsWhole).read_unread (sT m c)
  have r1 : View.read (Elt F) (View.whole cc0_scratch1 : View sig .tc .vmem S1024x256 .f32) ((Memref.isWhole_whole _ : scM1.IsWhole).unread (sAcc0 m c)) = sAcc0 m c :=
    (Memref.isWhole_whole _ : scM1.IsWhole).read_unread (sAcc0 m c)
  have r2 : View.read (Elt F) (View.whole cc0_scratch2 : View sig .tc .vmem S256x1024 .f32) ((Memref.isWhole_whole _ : scM2.IsWhole).unread (sW m c)) = sW m c :=
    (Memref.isWhole_whole _ : scM2.IsWhole).read_unread (sW m c)
  simp only [View.readAt_eq_ld, Memref.IsWhole.read_unread, View.ld_unit_zero (S := S512x1024) hz2, View.ld_unit_zero (S := S1x256) hz2,
    View.ld_unit_zero (S := S1024x256) hz2, View.ld_unit_zero (S := S256x1024) hz2, View.ld_unit_zero (S := S4x1x256) hz3,
    View.ld_unit_zero (S := S256x128) hz2, View.ld_unit_zero (S := S1x128) hz2,
    View.readCov_unit_zero (S := S1024x256) scM1.view hz2, r0, r1, r2]
  rfl

end Cert.KernelIdeal.Hand

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«118711_g2000205832823720_pallasbulk_239_23_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«118711_g2000205832823720_pallasbulk_239_23_alg».proof.Proof.LibDenseRows
import proofs.«118711_g2000205832823720_pallasbulk_239_23_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.Spec.lean ====
/-
  The network as plain formulas over the extended reals, one entry at a time, and the one law that joins the two programs.

  With x the node features, Af the full adjacency, As the four snapshot adjacencies, and the weights and biases of the four layers:
    T      = relu(x·Wpre + bpre)·W0                                   the first layer times the second layer's weights
    h1[k]  = the row relu(Af[k]·T + b0) scaled by the reciprocal square root of max(its sum of squares, floor)
    U[k,s] = h1[k]·W1[s]                                                one product per snapshot
    acc    = ((As[0]·U[·,0] + As[1]·U[·,1]) + As[2]·U[·,2]) + As[3]·U[·,3]
    out    = normalise(relu(acc + Σ_s b1[s]))·Wh + bh
  One program sums each product over all 1024 nodes at once; the other over the first 512, then adds the sum over the last
  512. Addition on the extended reals is commutative and associative at the infinities too, so the two agree (`whole_eq_parts`).
-/
import Idealize.ShloMosaic.PureOps.Ideal
import Idealize.ShloMosaic.Lib.ValueIdx
import Mathlib.Algebra.BigOperators.Fin
import proofs.«118711_g2000205832823720_pallasbulk_239_23_alg».proof.Proof.LibChunkSum

noncomputable section

open scoped BigOperators

namespace Cert.Spec

open Idealize.ShloMosaic

/-- The reciprocal square root on the extended reals, as both programs apply it. -/
def rs (v : EReal) : EReal := FloatOps.rsqrt (F := Ideal) (φ := .f32) v
/-- The floor under a row's sum of squares. -/
def fl : EReal := Ideal.ofBits .f32 0x179ABE15#32

/-- A row scaled to unit length (or by the floor's root, if it is shorter than that). -/
def normRow {B : ℕ} (P : Fin B → EReal) (q : Fin B) : EReal := P q * rs (max (∑ k, P k * P k) fl)

/-- The first layer's activations times the second layer's weights. -/
def T (x : Fin 1024 → Fin 128 → EReal) (wp : Fin 128 → Fin 256 → EReal) (bp : Fin 256 → EReal) (w0 : Fin 256 → Fin 256 → EReal)
    (n : Fin 1024) (e : Fin 256) : EReal :=
  ∑ d : Fin 256, max ((∑ k : Fin 128, x n k * wp k d) + bp d) 0 * w0 d e

/-- One node's second-layer pre-normalisation row, from its row of the full adjacency. -/
def P1 (a : Fin 1024 → EReal) (t : Fin 1024 → Fin 256 → EReal) (b0 : Fin 256 → EReal) (e : Fin 256) : EReal :=
  max ((∑ k, a k * t k e) + b0 e) 0

/-- One node's normalised second-layer row times snapshot s's weights. -/
def Ucol (a : Fin 1024 → EReal) (t : Fin 1024 → Fin 256 → EReal) (b0 : Fin 256 → EReal) (w1 : Fin 4 → Fin 256 → Fin 256 → EReal)
    (s : Fin 4) (e : Fin 256) : EReal :=
  ∑ d : Fin 256, normRow (P1 a t b0) d * w1 s d e

/-- Column `e` of snapshot `s` in the side-by-side layout of the four snapshots' products. -/
def col (s : Fin 4) (e : Fin 256) : Fin 1024 := ⟨256 * s.val + e.val, by have := s.isLt; have := e.isLt; omega⟩

/-- Node `k` of row block `c`. -/
def rowOf (c : Fin 2) (k : Fin 512) : Fin 1024 := ⟨512 * c.val + k.val, by have := c.isLt; have := k.isLt; omega⟩

/-- The snapshot sum over all nodes at once. -/
def whole (as : Fin 4 → Fin 1024 → Fin 1024 → EReal) (u : Fin 1024 → Fin 4 → Fin 256 → EReal) (n : Fin 1024) (e : Fin 256) : EReal :=
  (((∑ k, as 0 n k * u k 0 e) + (∑ k, as 1 n k * u k 1 e)) + (∑ k, as 2 n k * u k 2 e)) + (∑ k, as 3 n k * u k 3 e)

/-- The snapshot sum over the nodes of row block `c` only. -/
def part (c : Fin 2) (as : Fin 4 → Fin 1024 → Fin 1024 → EReal) (u : Fin 1024 → Fin 4 → Fin 256 → EReal) (n : Fin 1024) (e : Fin 256) : EReal :=
  (((∑ k : Fin 512, as 0 n (rowOf c k) * u (rowOf c k) 0 e) + (∑ k : Fin 512, as 1 n (rowOf c k) * u (rowOf c k) 1 e))
    + (∑ k : Fin 512, as 2 n (rowOf c k) * u (rowOf c k) 2 e)) + (∑ k : Fin 512, as 3 n (rowOf c k) * u (rowOf c k) 3 e)

/-- A sum over the 1024 nodes is the sum over the first 512 plus the sum over the last 512. -/
theorem sum_halves (f : Fin 1024 → EReal) : ∑ k, f k = (∑ k : Fin 512, f (rowOf 0 k)) + ∑ k : Fin 512, f (rowOf 1 k) := by
  have h := Cert.LibChunkSum.sum_chunks (M := EReal) 2 512 f rowOf (fun c j => rfl)
  rw [h, Fin.sum_univ_two]

/-- The sum over all nodes is the two row blocks' sums added: only the order of additions differs. -/
theorem whole_eq_parts (as : Fin 4 → Fin 1024 → Fin 1024 → EReal) (u : Fin 1024 → Fin 4 → Fin 256 → EReal) (n : Fin 1024) (e : Fin 256) :
    whole as u n e = part 0 as u n e + part 1 as u n e := by
  unfold whole part
  rw [sum_halves (fun k => as 0 n k * u k 0 e), sum_halves (fun k => as 1 n k * u k 1 e),
    sum_halves (fun k => as 2 n k * u k 2 e), sum_halves (fun k => as 3 n k * u k 3 e)]
  abel

/-- The head: the summed biases added, the maximum with zero, the row normalised, the head's weights and bias. -/
def out (acc : Fin 1024 → Fin 256 → EReal) (bs : Fin 256 → EReal) (wh : Fin 256 → Fin 128 → EReal) (bh : Fin 128 → EReal)
    (n : Fin 1024) (o : Fin 128) : EReal :=
  (∑ d : Fin 256, normRow (fun e => max (acc n e + bs e) 0) d * wh d o) + bh o

/-- The head depends on its four operands entry by entry only. -/
theorem out_congr {acc acc' : Fin 1024 → Fin 256 → EReal} {bs bs' : Fin 256 → EReal} {wh wh' : Fin 256 → Fin 128 → EReal} {bh bh' : Fin 128 → EReal}
    (ha : ∀ n e, acc n e = acc' n e) (hb : ∀ e, bs e = bs' e) (hw : ∀ d o, wh d o = wh' d o) (hh : ∀ o, bh o = bh' o)
    (n : Fin 1024) (o : Fin 128) : out acc bs wh bh n o = out acc' bs' wh' bh' n o := by
  rw [show acc = acc' from funext fun n => funext fun e => ha n e, show bs = bs' from funext hb,
    show wh = wh' from funext fun d => funext fun o => hw d o, show bh = bh' from funext hh]

/-- The whole network at one entry of the result. -/
def result (x : Fin 1024 → Fin 128 → EReal) (af : Fin 1024 → Fin 1024 → EReal) (as : Fin 4 → Fin 1024 → Fin 1024 → EReal)
    (wp : Fin 128 → Fin 256 → EReal) (bp : Fin 256 → EReal) (w0 : Fin 256 → Fin 256 → EReal) (b0 : Fin 256 → EReal)
    (w1 : Fin 4 → Fin 256 → Fin 256 → EReal) (b1 : Fin 4 → Fin 256 → EReal) (wh : Fin 256 → Fin 128 → EReal) (bh : Fin 128 → EReal)
    (n : Fin 1024) (o : Fin 128) : EReal :=
  out (whole as (fun k => Ucol (af k) (T x wp bp w0) b0 w1)) (fun e => ∑ s : Fin 4, b1 s e) wh bh n o

open Idealize.ShloMosaic.ValueIdx in
/-- The result array as a function of the eleven argument arrays. -/
def resultOf (a0 : (⟨2, ![1024, 128]⟩ : Shape).Idx → EReal) (a1 : (⟨2, ![1024, 1024]⟩ : Shape).Idx → EReal)
    (a2 : (⟨3, ![4, 1024, 1024]⟩ : Shape).Idx → EReal) (a3 : (⟨2, ![128, 256]⟩ : Shape).Idx → EReal) (a4 : (⟨1, ![256]⟩ : Shape).Idx → EReal)
    (a5 : (⟨2, ![256, 256]⟩ : Shape).Idx → EReal) (a6 : (⟨1, ![256]⟩ : Shape).Idx → EReal) (a7 : (⟨3, ![4, 256, 256]⟩ : Shape).Idx → EReal)
    (a8 : (⟨2, ![4, 256]⟩ : Shape).Idx → EReal) (a9 : (⟨2, ![256, 128]⟩ : Shape).Idx → EReal) (a10 : (⟨1, ![128]⟩ : Shape).Idx → EReal) :
    (⟨2, ![1024, 128]⟩ : Shape).Idx → EReal :=
  fun i => result (fun n k => a0 (ix2 n k)) (fun n k => a1 (ix2 n k)) (fun s n k => a2 (ix3 s n k)) (fun k d => a3 (ix2 k d))
    (fun d => a4 (ix1 d)) (fun d e => a5 (ix2 d e)) (fun e => a6 (ix1 e)) (fun s d e => a7 (ix3 s d e)) (fun s e => a8 (ix2 s e))
    (fun d o => a9 (ix2 d o)) (fun o => a10 (ix1 o)) (i 0) (i 1)

end Cert.Spec

end
-- ==== Proof.KI.Payload.lean ====
/-
  The kernel body's arithmetic, one entry at a time, at the exact instance: each payload of the body as the
  plain formula of its loaded blocks (the formulas of the specification).
-/
import proofs.«118711_g2000205832823720_pallasbulk_239_23_alg».proof.Proof.Gen.KernelIdeal.Skeleton
import proofs.«118711_g2000205832823720_pallasbulk_239_23_alg».proof.Proof.LibPlainLayers
import proofs.«118711_g2000205832823720_pallasbulk_239_23_alg».proof.Proof.Spec
import Idealize.ShloMosaic.Lib.ValueLayout
import Idealize.ShloMosaic.Lib.Pipeline.Value

set_option maxRecDepth 16384

noncomputable section

open scoped BigOperators

namespace Cert.KernelIdeal.HandValue

open Idealize.ShloMosaic Idealize.ShloMosaic.ValueIdx
open Cert.KernelIdeal Cert.KernelIdeal.Gen Cert.PlainLayers Cert.Spec

/-- The first layer's activations times the second layer's weights. -/
theorem pay5_apply (v50 : Vec Ideal S1024x128 .f32) (v51 : Vec Ideal S128x256 .f32) (v53 : Vec Ideal S1x256 .f32) (v59 : Vec Ideal S256x256 .f32)
    (n : Fin 1024) (e : Fin 256) :
    k0_pay5 (F := Ideal) v50 v51 v53 v59 (ix2 n e)
      = Spec.T (fun n k => v50 (ix2 n k)) (fun k d => v51 (ix2 k d)) (fun d => v53 (ix2 (0 : Fin 1) d)) (fun d e => v59 (ix2 d e)) n e := by
  unfold k0_pay5 Spec.T
  refine (congrFun (shapeCast_self _ _) _).trans ?_
  refine (plainMM_of_eq dot_S1024x256_S256x256_S1024x256_1_0_0_1_n_n rfl none _ v59 n e).trans ?_
  exact Finset.sum_congr rfl fun d _ => congrArg (· * v59 (ix2 d e))
    (dense_relu_apply dot_S1024x128_S128x256_S1024x256_1_0_0_1_n_n rfl none v50 v51 v53 shapeCasts_S1x256_S1x256 broadcasts_S1x256_S1024x256 n d)

/-- A row block's normalised second-layer rows times the flattened snapshot weights. -/
theorem pay7_apply (v3 : Vec Ideal S512x1024 .f32) (v4 : Vec Ideal S1024x256 .f32) (v6 : Vec Ideal S1x256 .f32) (v20 : Vec Ideal S256x1024 .f32)
    (r : Fin 512) (j : Fin 1024) :
    k0_pay7 (F := Ideal) v3 v4 v6 v20 (ix2 r j)
      = ∑ d : Fin 256, normRow (P1 (fun k => v3 (ix2 r k)) (fun k e => v4 (ix2 k e)) (fun e => v6 (ix2 (0 : Fin 1) e))) d * v20 (ix2 d j) := by
  unfold k0_pay7
  refine (plainMM_of_eq dot_S512x256_S256x1024_S512x1024_1_0_0_1_n_n rfl none _ v20 r j).trans ?_
  refine Finset.sum_congr rfl fun d _ => congrArg (· * v20 (ix2 d j)) ?_
  exact l2norm_apply_of _ (P1 (fun k => v3 (ix2 r k)) (fun k e => v4 (ix2 k e)) (fun e => v6 (ix2 (0 : Fin 1) e))) r
    (fun e => dense_relu_apply dot_S512x1024_S1024x256_S512x256_1_0_0_1_n_n rfl none v3 v4 v6 shapeCasts_S1x256_S1x256 broadcasts_S1x256_S512x256 r e)
    0x00000000#32 reduces_S512x256_S512 (.inl rfl) rfl shapeCasts_S512_S512x1 0x179ABE15#32 broadcasts_S512x1_S512x256 d

/-- The first two snapshots' products with a row block's columns. -/
theorem pay8_apply (v3 : Vec Ideal S512x1024 .f32) (v4 : Vec Ideal S1024x256 .f32) (v6 : Vec Ideal S1x256 .f32) (v20 : Vec Ideal S256x1024 .f32)
    (v22 v26 : Vec Ideal S1x1024x512 .f32) (n : Fin 1024) (e : Fin 256) :
    k0_pay8 (F := Ideal) v3 v4 v6 v20 v22 v26 (ix2 n e)
      = (∑ k : Fin 512, v22 (ix3 (0 : Fin 1) n k) * k0_pay7 (F := Ideal) v3 v4 v6 v20 (ix2 k (col 0 e)))
        + ∑ k : Fin 512, v26 (ix3 (0 : Fin 1) n k) * k0_pay7 (F := Ideal) v3 v4 v6 v20 (ix2 k (col 1 e)) := by
  unfold k0_pay8
  refine (addf_apply _ _ _).trans (congrArg₂ (· + ·) ?_ ?_)
  · refine (plainMM_of_eq dot_S1024x512_S512x256_S1024x256_1_0_0_1_n_n rfl none _ _ n e).trans ?_
    exact Finset.sum_congr rfl fun k _ => congrArg₂ (· * ·) (shapeCast_1ab_ab_apply v22 shapeCasts_S1x1024x512_S1024x512 n k)
      (slice2_axis1_apply 0 _ slices_S512x1024_o0_0_S512x256 k e (col 0 e) (by show 256 * 0 + e.val = 0 + e.val; omega))
  · refine (plainMM_of_eq dot_S1024x512_S512x256_S1024x256_1_0_0_1_n_n rfl none _ _ n e).trans ?_
    exact Finset.sum_congr rfl fun k _ => congrArg₂ (· * ·) (shapeCast_1ab_ab_apply v26 shapeCasts_S1x1024x512_S1024x512 n k)
      (slice2_axis1_apply 256 _ slices_S512x1024_o0_256_S512x256 k e (col 1 e) (by show 256 * 1 + e.val = 256 + e.val; omega))

/-- All four snapshots' products with a row block's columns, added in the body's order. -/
theorem pay1_apply (v21 : FVec Ideal S512x1024 .f32) (v30 : FVec Ideal S1024x256 .f32) (v31 v36 : Vec Ideal S1x1024x512 .f32) (n : Fin 1024) (e : Fin 256) :
    k0_pay1 (F := Ideal) v21 v30 v31 v36 (ix2 n e)
      = (v30 (ix2 n e) + ∑ k : Fin 512, v31 (ix3 (0 : Fin 1) n k) * v21 (ix2 k (col 2 e)))
        + ∑ k : Fin 512, v36 (ix3 (0 : Fin 1) n k) * v21 (ix2 k (col 3 e)) := by
  unfold k0_pay1
  refine (addf_apply _ _ _).trans (congrArg₂ (· + ·) ((addf_apply _ _ _).trans (congrArg (v30 (ix2 n e) + ·) ?_)) ?_)
  · refine (plainMM_of_eq dot_S1024x512_S512x256_S1024x256_1_0_0_1_n_n rfl none _ _ n e).trans ?_
    exact Finset.sum_congr rfl fun k _ => congrArg₂ (· * ·) (shapeCast_1ab_ab_apply v31 shapeCasts_S1x1024x512_S1024x512 n k)
      (slice2_axis1_apply 512 _ slices_S512x1024_o0_512_S512x256 k e (col 2 e) (by show 256 * 2 + e.val = 512 + e.val; omega))
  · refine (plainMM_of_eq dot_S1024x512_S512x256_S1024x256_1_0_0_1_n_n rfl none _ _ n e).trans ?_
    exact Finset.sum_congr rfl fun k _ => congrArg₂ (· * ·) (shapeCast_1ab_ab_apply v36 shapeCasts_S1x1024x512_S1024x512 n k)
      (slice2_axis1_apply 768 _ slices_S512x1024_o0_768_S512x256 k e (col 3 e) (by show 256 * 3 + e.val = 768 + e.val; omega))

/-- What the first point stores as the running sum. -/
theorem pay2_eq (v21 : FVec Ideal S512x1024 .f32) (v30 : FVec Ideal S1024x256 .f32) (v31 v36 : Vec Ideal S1x1024x512 .f32) :
    k0_pay2 (F := Ideal) v21 v30 v31 v36 = k0_pay1 (F := Ideal) v21 v30 v31 v36 := by
  unfold k0_pay2; exact shapeCast_self _ _

/-- What the last point stores: the running sum plus its own block's products. -/
theorem pay3_apply (v21 : FVec Ideal S512x1024 .f32) (v30 : FVec Ideal S1024x256 .f32) (v31 v36 : Vec Ideal S1x1024x512 .f32) (v50 : Vec Ideal S1024x256 .f32)
    (i : S1024x256.Idx) :
    k0_pay3 (F := Ideal) v21 v30 v31 v36 v50 i = v50 i + k0_pay1 (F := Ideal) v21 v30 v31 v36 i := by
  unfold k0_pay3; exact (congrFun (shapeCast_self _ _) i).trans (addf_apply _ _ _)

/-- The head. -/
theorem pay4_apply (v50 : Vec Ideal S4x1x256 .f32) (v53 : Vec Ideal S1024x256 .f32) (v66 : Vec Ideal S256x128 .f32) (v68 : Vec Ideal S1x128 .f32)
    (n : Fin 1024) (o : Fin 128) :
    k0_pay4 (F := Ideal) v50 v53 v66 v68 (ix2 n o)
      = out (fun n e => v53 (ix2 n e)) (fun e => ∑ s : Fin 4, v50 (ix3 s (0 : Fin 1) e)) (fun d o => v66 (ix2 d o)) (fun o => v68 (ix2 (0 : Fin 1) o)) n o := by
  unfold k0_pay4 out
  refine (addf_apply _ _ _).trans (congrArg₂ (· + ·) ?_ ?_)
  · refine (plainMM_of_eq dot_S1024x256_S256x128_S1024x128_1_0_0_1_n_n rfl none _ v66 n o).trans ?_
    refine Finset.sum_congr rfl fun d _ => congrArg (· * v66 (ix2 d o)) ?_
    refine l2norm_apply_of _ (fun e => max (v53 (ix2 n e) + ∑ s : Fin 4, v50 (ix3 s (0 : Fin 1) e)) 0) n (fun e => ?_)
      0x00000000#32 reduces_S1024x256_S1024 (.inl rfl) rfl shapeCasts_S1024_S1024x1 0x179ABE15#32 broadcasts_S1024x1_S1024x256 d
    refine congrArg₂ max ((addf_apply _ _ _).trans (congrArg (v53 (ix2 n e) + ·) ?_)) Ideal.ofBits_zero_f32
    refine (broadcastTo_1b_ab_apply _ broadcasts_S1x256_S1024x256 n e).trans ?_
    refine (leadSum_apply _ _ reduces_S4x1x256_S1x256 (.inl rfl) rfl 0 e).trans ?_
    exact Finset.sum_congr rfl fun s _ => congrFun (shapeCast_self v50 shapeCasts_S4x1x256_S4x1x256) _
  · exact (broadcastTo_1b_ab_apply _ broadcasts_S1x128_S1024x128 n o).trans (congrFun (shapeCast_self v68 shapeCasts_S1x128_S1x128) _)

end Cert.KernelIdeal.HandValue

end
-- ==== Proof.KI.Concat.lean ====
/-
  The flattened second-layer weights: the four snapshots' matrices side by side, so column 256·s + e of the flat
  matrix is column e of snapshot s's.
-/
import proofs.«118711_g2000205832823720_pallasbulk_239_23_alg».proof.Proof.Gen.KernelIdeal.Skeleton
import proofs.«118711_g2000205832823720_pallasbulk_239_23_alg».proof.Proof.Spec
import Idealize.ShloMosaic.Lib.ValueLayout
import Idealize.ShloMosaic.Lib.Pipeline.Value

set_option maxRecDepth 16384

noncomputable section

open scoped BigOperators

namespace Cert.KernelIdeal.HandValue

open Idealize.ShloMosaic Idealize.ShloMosaic.ValueIdx
open Cert.KernelIdeal Cert.KernelIdeal.Gen Cert.Spec

variable {F : FTy → Type} [FloatOps F]
variable (v64 v66 v68 v70 : Vec F S1x256x256 .f32) (d e : Fin 256)

theorem pay6_col0 : k0_pay6 v64 v66 v68 v70 (ix2 d (col 0 e)) = v64 (ix3 (0 : Fin 1) d e) := by
  unfold k0_pay6
  refine (congrFun (shapeCast_self _ _) _).trans ?_
  refine (concatenate_apply_piece (1 : Fin S256x1024.rank) [⟨S256x256, shapeCast S256x256 v64 shapeCasts_S1x256x256_S256x256⟩, ⟨S256x256, shapeCast S256x256 v66 shapeCasts_S1x256x256_S256x256⟩, ⟨S256x256, shapeCast S256x256 v68 shapeCasts_S1x256x256_S256x256⟩, ⟨S256x256, shapeCast S256x256 v70 shapeCasts_S1x256x256_S256x256⟩] concatenates_S256x256_S256x256_S256x256_S256x256_S256x1024_d1 (ix2 d (col 0 e)) 0 (by show 0 < 4; omega) S256x256 _ rfl rfl 0 rfl (ix2 d e)
    (fun b hb => ?_) ?_).trans (shapeCast_1ab_ab_apply v64 shapeCasts_S1x256x256_S256x256 d e)
  · match b with
    | ⟨0, _⟩ => rfl
    | ⟨1, _⟩ => exact absurd rfl hb
  · show 0 + e.val = 256 * 0 + e.val; omega

theorem pay6_col1 : k0_pay6 v64 v66 v68 v70 (ix2 d (col 1 e)) = v66 (ix3 (0 : Fin 1) d e) := by
  unfold k0_pay6
  refine (congrFun (shapeCast_self _ _) _).trans ?_
  refine (concatenate_apply_piece (1 : Fin S256x1024.rank) [⟨S256x256, shapeCast S256x256 v64 shapeCasts_S1x256x256_S256x256⟩, ⟨S256x256, shapeCast S256x256 v66 shapeCasts_S1x256x256_S256x256⟩, ⟨S256x256, shapeCast S256x256 v68 shapeCasts_S1x256x256_S256x256⟩, ⟨S256x256, shapeCast S256x256 v70 shapeCasts_S1x256x256_S256x256⟩] concatenates_S256x256_S256x256_S256x256_S256x256_S256x1024_d1 (ix2 d (col 1 e)) 1 (by show 1 < 4; omega) S256x256 _ rfl rfl 256 rfl (ix2 d e)
    (fun b hb => ?_) ?_).trans (shapeCast_1ab_ab_apply v66 shapeCasts_S1x256x256_S256x256 d e)
  · match b with
    | ⟨0, _⟩ => rfl
    | ⟨1, _⟩ => exact absurd rfl hb
  · show 256 + e.val = 256 * 1 + e.val; omega

theorem pay6_col2 : k0_pay6 v64 v66 v68 v70 (ix2 d (col 2 e)) = v68 (ix3 (0 : Fin 1) d e) := by
  unfold k0_pay6
  refine (congrFun (shapeCast_self _ _) _).trans ?_
  refine (concatenate_apply_piece (1 : Fin S256x1024.rank) [⟨S256x256, shapeCast S256x256 v64 shapeCasts_S1x256x256_S256x256⟩, ⟨S256x256, shapeCast S256x256 v66 shapeCasts_S1x256x256_S256x256⟩, ⟨S256x256, shapeCast S256x256 v68 shapeCasts_S1x256x256_S256x256⟩, ⟨S256x256, shapeCast S256x256 v70 shapeCasts_S1x256x256_S256x256⟩] concatenates_S256x256_S256x256_S256x256_S256x256_S256x1024_d1 (ix2 d (col 2 e)) 2 (by show 2 < 4; omega) S256x256 _ rfl rfl 512 rfl (ix2 d e)
    (fun b hb => ?_) ?_).trans (shapeCast_1ab_ab_apply v68 shapeCasts_S1x256x256_S256x256 d e)
  · match b with
    | ⟨0, _⟩ => rfl
    | ⟨1, _⟩ => exact absurd rfl hb
  · show 512 + e.val = 256 * 2 + e.val; omega

theorem pay6_col3 : k0_pay6 v64 v66 v68 v70 (ix2 d (col 3 e)) = v70 (ix3 (0 : Fin 1) d e) := by
  unfold k0_pay6
  refine (congrFun (shapeCast_self _ _) _).trans ?_
  refine (concatenate_apply_piece (1 : Fin S256x1024.rank) [⟨S256x256, shapeCast S256x256 v64 shapeCasts_S1x256x256_S256x256⟩, ⟨S256x256, shapeCast S256x256 v66 shapeCasts_S1x256x256_S256x256⟩, ⟨S256x256, shapeCast S256x256 v68 shapeCasts_S1x256x256_S256x256⟩, ⟨S256x256, shapeCast S256x256 v70 shapeCasts_S1x256x256_S256x256⟩] concatenates_S256x256_S256x256_S256x256_S256x256_S256x1024_d1 (ix2 d (col 3 e)) 3 (by show 3 < 4; omega) S256x256 _ rfl rfl 768 rfl (ix2 d e)
    (fun b hb => ?_) ?_).trans (shapeCast_1ab_ab_apply v70 shapeCasts_S1x256x256_S256x256 d e)
  · match b with
    | ⟨0, _⟩ => rfl
    | ⟨1, _⟩ => exact absurd rfl hb
  · show 768 + e.val = 256 * 3 + e.val; omega

end Cert.KernelIdeal.HandValue

end
-- ==== Proof.KI.Blocks.lean ====
/-
  Each window's block at a point, read off the array it is a block of: the whole array for the resident operands,
  the point's rows of the full adjacency, the point's columns of the first and of the second pair of snapshot
  adjacencies. And the four bias operands as the host's reshapes of the argument vectors.
-/
import proofs.«118711_g2000205832823720_pallasbulk_239_23_alg».proof.Proof.KI.Frame
import Idealize.ShloMosaic.Lib.Pipeline.Value
import Idealize.ShloMosaic.Lib.ValueIdx
import Idealize.ShloMosaic.Lib.ValueLayout
import Idealize.ShloMosaic.Lib.StableHlo.Run
import proofs.«118711_g2000205832823720_pallasbulk_239_23_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The printed index maps over the grid -/

theorem idx0 : ∀ t : Fin cfg0.N, win0_0.index t (0 : Fin 2) = 0 ∧ win0_0.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val :=
  (by decide +kernel : ∀ t : Fin grid0.N, _)
theorem idx3 : ∀ t : Fin cfg0.N, win0_3.index t (0 : Fin 3) = 1 ∧ win0_3.index t (1 : Fin 3) = 0 ∧ win0_3.index t (2 : Fin 3) = t.val :=
  (by decide +kernel : ∀ t : Fin grid0.N, _)

/-! ## The resident operands: the block is the array -/

theorem blk0_apply (c : Dev nD) (t : Fin cfg0.N) (p : Fin 1024) (q : Fin 128) :
    iblk m c 0 t (ix2 p q) = V m c main_arg0 (ix2 p q) := by
  obtain ⟨e0, e1⟩ := idx0 t
  show V m c main_arg0 (((cfg0.win 0).blk t).view.emb (ix2 p q)) = V m c main_arg0 (ix2 p q)
  refine congrArg (V m c main_arg0) (funext fun a => Fin.ext ?_)
  match a with
  | ⟨0, _⟩ => show win0_0.index t (0 : Fin 2) * 1024 + 1 * p.val = p.val; omega
  | ⟨1, _⟩ => show win0_0.index t (1 : Fin 2) * 128 + 1 * q.val = q.val; omega
theorem blk4_apply (c : Dev nD) (t : Fin cfg0.N) (p : Fin 128) (q : Fin 256) :
    iblk m c 4 t (ix2 p q) = V m c main_arg3 (ix2 p q) := by
  obtain ⟨e0, e1⟩ := idx4 t
  show V m c main_arg3 (((cfg0.win 4).blk t).view.emb (ix2 p q)) = V m c main_arg3 (ix2 p q)
  refine congrArg (V m c main_arg3) (funext fun a => Fin.ext ?_)
  match a with
  | ⟨0, _⟩ => show win0_4.index t (0 : Fin 2) * 128 + 1 * p.val = p.val; omega
  | ⟨1, _⟩ => show win0_4.index t (1 : Fin 2) * 256 + 1 * q.val = q.val; omega
theorem blk5_apply (c : Dev nD) (t : Fin cfg0.N) (p : Fin 1) (q : Fin 256) :
    iblk m c 5 t (ix2 p q) = V m c main_v0 (ix2 p q) := by
  obtain ⟨e0, e1⟩ := idx5 t
  show V m c main_v0 (((cfg0.win 5).blk t).view.emb (ix2 p q)) = V m c main_v0 (ix2 p q)
  refine congrArg (V m c main_v0) (funext fun a => Fin.ext ?_)
  match a with
  | ⟨0, _⟩ => show win0_5.index t (0 : Fin 2) * 1 + 1 * p.val = p.val; omega
  | ⟨1, _⟩ => show win0_5.index t (1 : Fin 2) * 256 + 1 * q.val = q.val; omega
theorem blk6_apply (c : Dev nD) (t : Fin cfg0.N) (p : Fin 256) (q : Fin 256) :
    iblk m c 6 t (ix2 p q) = V m c main_arg5 (ix2 p q) := by
  obtain ⟨e0, e1⟩ := idx6 t
  show V m c main_arg5 (((cfg0.win 6).blk t).view.emb (ix2 p q)) = V m c main_arg5 (ix2 p q)
  refine congrArg (V m c main_arg5) (funext fun a => Fin.ext ?_)
  match a with
  | ⟨0, _⟩ => show win0_6.index t (0 : Fin 2) * 256 + 1 * p.val = p.val; omega
  | ⟨1, _⟩ => show win0_6.index t (1 : Fin 2) * 256 + 1 * q.val = q.val; omega
theorem blk7_apply (c : Dev nD) (t : Fin cfg0.N) (p : Fin 1) (q : Fin 256) :
    iblk m c 7 t (ix2 p q) = V m c main_v1 (ix2 p q) := by
  obtain ⟨e0, e1⟩ := idx7 t
  show V m c main_v1 (((cfg0.win 7).blk t).view.emb (ix2 p q)) = V m c main_v1 (ix2 p q)
  refine congrArg (V m c main_v1) (funext fun a => Fin.ext ?_)
  match a with
  | ⟨0, _⟩ => show win0_7.index t (0 : Fin 2) * 1 + 1 * p.val = p.val; omega
  | ⟨1, _⟩ => show win0_7.index t (1 : Fin 2) * 256 + 1 * q.val = q.val; omega
theorem blk8_apply (c : Dev nD) (t : Fin cfg0.N) (p : Fin 4) (q : Fin 256) (r : Fin 256) :
    iblk m c 8 t (ix3 p q r) = V m c main_arg7 (ix3 p q r) := by
  obtain ⟨e0, e1, e2⟩ := idx8 t
  show V m c main_arg7 (((cfg0.win 8).blk t).view.emb (ix3 p q r)) = V m c main_arg7 (ix3 p q r)
  refine congrArg (V m c main_arg7) (funext fun a => Fin.ext ?_)
  match a with
  | ⟨0, _⟩ => show win0_8.index t (0 : Fin 3) * 4 + 1 * p.val = p.val; omega
  | ⟨1, _⟩ => show win0_8.index t (1 : Fin 3) * 256 + 1 * q.val = q.val; omega
  | ⟨2, _⟩ => show win0_8.index t (2 : Fin 3) * 256 + 1 * r.val = r.val; omega
theorem blk9_apply (c : Dev nD) (t : Fin cfg0.N) (p : Fin 4) (q : Fin 1) (r : Fin 256) :
    iblk m c 9 t (ix3 p q r) = V m c main_v2 (ix3 p q r) := by
  obtain ⟨e0, e1, e2⟩ := idx9 t
  show V m c main_v2 (((cfg0.win 9).blk t).view.emb (ix3 p q r)) = V m c main_v2 (ix3 p q r)
  refine congrArg (V m c main_v2) (funext fun a => Fin.ext ?_)
  match a with
  | ⟨0, _⟩ => show win0_9.index t (0 : Fin 3) * 4 + 1 * p.val = p.val; omega
  | ⟨1, _⟩ => show win0_9.index t (1 : Fin 3) * 1 + 1 * q.val = q.val; omega
  | ⟨2, _⟩ => show win0_9.index t (2 : Fin 3) * 256 + 1 * r.val = r.val; omega
theorem blk10_apply (c : Dev nD) (t : Fin cfg0.N) (p : Fin 256) (q : Fin 128) :
    iblk m c 10 t (ix2 p q) = V m c main_arg9 (ix2 p q) := by
  obtain ⟨e0, e1⟩ := idx10 t
  show V m c main_arg9 (((cfg0.win 10).blk t).view.emb (ix2 p q)) = V m c main_arg9 (ix2 p q)
  refine congrArg (V m c main_arg9) (funext fun a => Fin.ext ?_)
  match a with
  | ⟨0, _⟩ => show win0_10.index t (0 : Fin 2) * 256 + 1 * p.val = p.val; omega
  | ⟨1, _⟩ => show win0_10.index t (1 : Fin 2) * 128 + 1 * q.val = q.val; omega
theorem blk11_apply (c : Dev nD) (t : Fin cfg0.N) (p : Fin 1) (q : Fin 128) :
    iblk m c 11 t (ix2 p q) = V m c main_v3 (ix2 p q) := by
  obtain ⟨e0, e1⟩ := idx11 t
  show V m c main_v3 (((cfg0.win 11).blk t).view.emb (ix2 p q)) = V m c main_v3 (ix2 p q)
  refine congrArg (V m c main_v3) (funext fun a => Fin.ext ?_)
  match a with
  | ⟨0, _⟩ => show win0_11.index t (0 : Fin 2) * 1 + 1 * p.val = p.val; omega
  | ⟨1, _⟩ => show win0_11.index t (1 : Fin 2) * 128 + 1 * q.val = q.val; omega

/-! ## The streamed operands: the point's rows, the point's columns -/

theorem blk1_apply (c : Dev nD) (t : Fin cfg0.N) (cb : Fin 2) (hcb : cb.val = t.val) (p : Fin 512) (q : Fin 1024) :
    iblk m c 1 t (ix2 p q) = V m c main_arg1 (ix2 (Cert.Spec.rowOf cb p) q) := by
  obtain ⟨e0, e1⟩ := idx1 t
  show V m c main_arg1 (((cfg0.win 1).blk t).view.emb (ix2 p q)) = V m c main_arg1 (ix2 (Cert.Spec.rowOf cb p) q)
  refine congrArg (V m c main_arg1) (funext fun a => Fin.ext ?_)
  match a with
  | ⟨0, _⟩ => show win0_1.index t (0 : Fin 2) * 512 + 1 * p.val = 512 * cb.val + p.val; omega
  | ⟨1, _⟩ => show win0_1.index t (1 : Fin 2) * 1024 + 1 * q.val = q.val; omega

theorem blk2_apply (c : Dev nD) (t : Fin cfg0.N) (cb : Fin 2) (hcb : cb.val = t.val) (s : Fin 2) (s4 : Fin 4) (hs : s4.val = s.val) (p : Fin 1024) (q : Fin 512) :
    iblk m c 2 t (ix3 s p q) = V m c main_arg2 (ix3 s4 p (Cert.Spec.rowOf cb q)) := by
  obtain ⟨e0, e1, e2⟩ := idx2 t
  show V m c main_arg2 (((cfg0.win 2).blk t).view.emb (ix3 s p q)) = V m c main_arg2 (ix3 s4 p (Cert.Spec.rowOf cb q))
  refine congrArg (V m c main_arg2) (funext fun a => Fin.ext ?_)
  match a with
  | ⟨0, _⟩ => show win0_2.index t (0 : Fin 3) * 2 + 1 * s.val = s4.val; omega
  | ⟨1, _⟩ => show win0_2.index t (1 : Fin 3) * 1024 + 1 * p.val = p.val; omega
  | ⟨2, _⟩ => show win0_2.index t (2 : Fin 3) * 512 + 1 * q.val = 512 * cb.val + q.val; omega

theorem blk3_apply (c : Dev nD) (t : Fin cfg0.N) (cb : Fin 2) (hcb : cb.val = t.val) (s : Fin 2) (s4 : Fin 4) (hs : s4.val = 2 + s.val) (p : Fin 1024) (q : Fin 512) :
    iblk m c 3 t (ix3 s p q) = V m c main_arg2 (ix3 s4 p (Cert.Spec.rowOf cb q)) := by
  obtain ⟨e0, e1, e2⟩ := idx3 t
  show V m c main_arg2 (((cfg0.win 3).blk t).view.emb (ix3 s p q)) = V m c main_arg2 (ix3 s4 p (Cert.Spec.rowOf cb q))
  refine congrArg (V m c main_arg2) (funext fun a => Fin.ext ?_)
  match a with
  | ⟨0, _⟩ => show win0_3.index t (0 : Fin 3) * 2 + 1 * s.val = s4.val; omega
  | ⟨1, _⟩ => show win0_3.index t (1 : Fin 3) * 1024 + 1 * p.val = p.val; omega
  | ⟨2, _⟩ => show win0_3.index t (2 : Fin 3) * 512 + 1 * q.val = 512 * cb.val + q.val; omega

/-! ## The bias operands: the host's reshapes -/

theorem V_v0 (c : Dev nD) : (V m c main_v0 : S1x256.Idx → Elt F .f32) = shapeCast S1x256 (m ((c : Thread nD τ).loc main_arg4)) shapeCasts_S256_S1x256 := by
  dsimp only [V, hostOps0]; after_results; rfl
theorem V_v1 (c : Dev nD) : (V m c main_v1 : S1x256.Idx → Elt F .f32) = shapeCast S1x256 (m ((c : Thread nD τ).loc main_arg6)) shapeCasts_S256_S1x256 := by
  dsimp only [V, hostOps0]; after_results; rfl
theorem V_v2 (c : Dev nD) : (V m c main_v2 : S4x1x256.Idx → Elt F .f32) = shapeCast S4x1x256 (m ((c : Thread nD τ).loc main_arg8)) shapeCasts_S4x256_S4x1x256 := by
  dsimp only [V, hostOps0]; after_results; rfl
theorem V_v3 (c : Dev nD) : (V m c main_v3 : S1x128.Idx → Elt F .f32) = shapeCast S1x128 (m ((c : Thread nD τ).loc main_arg10)) shapeCasts_S128_S1x128 := by
  dsimp only [V, hostOps0]; after_results; rfl

/-- A [4, 256] array recast as [4, 1, 256] reads, at (s, u, e), the array at (s, e). -/
theorem shapeCast_ab_a1b_apply {α : Type} {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.KernelIdeal.Hand

end
-- ==== Proof.KI.Region.lean ====
/-
  The region's launch: the argument array read through two windows divided between them, the invariant at the
  region's ends, the run, and the frame — every argument array ends as it began.
-/
import proofs.«118711_g2000205832823720_pallasbulk_239_23_alg».proof.Proof.KI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the scratch arrays hold anything. -/
theorem hin (c : Dev nD) : (Pipeline.scopedRest spec0 c : sProp 𝕄) ⊢ (dats m 0 c).Φ 0 :=
  (show (Pipeline.scopedRest spec0 c : sProp 𝕄) ⊢ PhiS m c 0 from Idealize.SL.BI.Entails.refl _)

/-- After the last point their named contents are forgotten. -/
theorem hout (c : Dev nD) : (dats m 0 c).Φ (Fin.last cfg0.N) ⊢ (Pipeline.scopedRest spec0 c : sProp 𝕄) := by
  rw [show (dats m 0 c).Φ (Fin.last cfg0.N) = PhiS m c 2 from by
    dsimp only [dats]; rw [Fin.val_last, show cfg0.N = 2 from N_0]]
  rw [scopedRest_eq]
  show iprop(owns (c : Thread nD τ) scM0 fullShare (sT m c) ∗ owns (c : Thread nD τ) scM1 fullShare (sAcc1 m c) ∗ owns (c : Thread nD τ) scM2 fullShare (sW m c)) ⊢ _
  iintro ⟨H0, H1, H2⟩
  isplitl [H0]; · iexists _; iexact H0
  isplitl [H1]; · iexists _; iexact H1
  iexists _; iexact H2

/-- The buffers behind the windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_v0) ↦{fullShare} V m c main_v0) ∗ (((c : Thread nD τ).loc main_arg5) ↦{fullShare} V m c main_arg5) ∗ (((c : Thread nD τ).loc main_v1) ↦{fullShare} V m c main_v1) ∗ (((c : Thread nD τ).loc main_arg7) ↦{fullShare} V m c main_arg7) ∗ (((c : Thread nD τ).loc main_v2) ↦{fullShare} V m c main_v2) ∗ (((c : Thread nD τ).loc main_arg9) ↦{fullShare} V m c main_arg9) ∗ (((c : Thread nD τ).loc main_v3) ↦{fullShare} V m c main_v3) ∗ (((c : Thread nD τ).loc main_v4) ↦{fullShare} V m c main_v4)) := by
  unfold Pipeline.arrBufs
  exact bigSep_eq_bigSepL_of_eq [main_arg0, main_arg1, main_arg2, main_arg3, main_v0, main_arg5, main_v1, main_arg7, main_v2, main_arg9, main_v3, main_v4] (by decide) (by decide) _

/-- A window's array at the share the proof data give it, from the buffer behind it at that share. -/
theorem arr_intro (c : Dev nD) (w : Fin cfg0.W) (q : PosShare TreeShare) (hq : (dats m 0 c).share w = q) :
    ((((c : Thread nD τ).loc (Pipeline.arrRef spec0 w)) ↦{q} V m c (Pipeline.arrRef spec0 w)) : sProp 𝕄)
      ⊢ (cfg0.win w).arr.view.loc (c : Thread nD τ) ↦[(cfg0.win w).arr.view.set]{(dats m 0 c).share w} (dats m 0 c).arrAt w 0 := by
  rw [hq, (arr_whole0 w).set_eq_univ]; exact Idealize.SL.BI.Entails.refl _

/-- The arrays at the region's entry: each window's at the full share, but the array of snapshot adjacencies,
    read by two windows, half to each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  iintro ⟨H0, H1, H2, H3, H4, H5, H6, H7, H8, H9, H10, H11⟩
  ihave H2' := (pointsTo_share (PosShare.mem_left_op_right fullShare)).1 $$ H2
  icases H2' with ⟨H2a, H2b⟩
  isplitl [H0]; · iapply (arr_intro m c 0 fullShare rfl); iexact H0
  isplitl [H1]; · iapply (arr_intro m c 1 fullShare rfl); iexact H1
  isplitl [H2a]; · iapply (arr_intro m c 2 fullShare.left rfl); iexact H2a
  isplitl [H2b]; · iapply (arr_intro m c 3 fullShare.right rfl); iexact H2b
  isplitl [H3]; · iapply (arr_intro m c 4 fullShare rfl); iexact H3
  isplitl [H4]; · iapply (arr_intro m c 5 fullShare rfl); iexact H4
  isplitl [H5]; · iapply (arr_intro m c 6 fullShare rfl); iexact H5
  isplitl [H6]; · iapply (arr_intro m c 7 fullShare rfl); iexact H6
  isplitl [H7]; · iapply (arr_intro m c 8 fullShare rfl); iexact H7
  isplitl [H8]; · iapply (arr_intro m c 9 fullShare rfl); iexact H8
  isplitl [H9]; · iapply (arr_intro m c 10 fullShare rfl); iexact H9
  isplitl [H10]; · iapply (arr_intro m c 11 fullShare rfl); iexact H10
  iapply (arr_intro m c 12 fullShare rfl); iexact H11

set_option backward.isDefEq.respectTransparency.types false in
/-- Every weakly fair execution of the program terminates; each array of the region ends at what the write-backs
    compose, every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

/-- From the run's post: every argument array is as it began. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c),
      ((h c).1 8).trans (((dats m 0 c).arrAt_in 8 rfl _).trans ((A_eq m c 8).trans (V_main_arg7 m c))),
      ((h c).2 main_arg8 (Pipeline.mem_restRefs_of main_arg8 (by decide) (by decide))).trans (V_main_arg8 m c),
      ((h c).1 10).trans (((dats m 0 c).arrAt_in 10 rfl _).trans ((A_eq m c 10).trans (V_main_arg9 m c))),
      ((h c).2 main_arg10 (Pipeline.mem_restRefs_of main_arg10 (by decide) (by decide))).trans (V_main_arg10 m c)⟩

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m r h c) (run_main m ρ)

end Cert.KernelIdeal.Hand

end
-- ==== Proof.KI.Value.lean ====
/-
  The kernel's result as the network's formula of the argument arrays.

  Point by point: the first scratch array holds the first layer's product; the flattened weights hold the four
  snapshot matrices side by side; each point's block of products is that row block's part of the snapshot sum; the
  running sum after the last point is the two parts added, which is the sum over all nodes; the head follows.
-/
import proofs.«118711_g2000205832823720_pallasbulk_239_23_alg».proof.Proof.KI.Named
import proofs.«118711_g2000205832823720_pallasbulk_239_23_alg».proof.Proof.KI.Payload
import proofs.«118711_g2000205832823720_pallasbulk_239_23_alg».proof.Proof.KI.Concat
import proofs.«118711_g2000205832823720_pallasbulk_239_23_alg».proof.Proof.KI.Blocks
import proofs.«118711_g2000205832823720_pallasbulk_239_23_alg».proof.Proof.KI.Region

set_option maxRecDepth 16384

noncomputable section

open scoped BigOperators

namespace Cert.KernelIdeal.HandValue

open Idealize.ShloMosaic Idealize.ShloMosaic.ValueIdx
open Idealize.ShloMosaic.TcCoe Idealize.SL Idealize.SL.Sem Idealize.ShloMosaic.Pipeline
open Cert.KernelIdeal Cert.KernelIdeal.Gen Cert.KernelIdeal.Hand Cert.Spec

variable (m : (ℓ : Loc nD τ sig) → Buf (Elt Ideal) ℓ) (ρ : Dev nD → PrngReg) (c : Dev nD)

/-! ## The argument arrays as plain functions -/

abbrev fX : Fin 1024 → Fin 128 → EReal := fun n k => (m ((c : Thread nD τ).loc main_arg0) : S1024x128.Idx → EReal) (ix2 n k)
abbrev fAf : Fin 1024 → Fin 1024 → EReal := fun n k => (m ((c : Thread nD τ).loc main_arg1) : S1024x1024.Idx → EReal) (ix2 n k)
abbrev fAs : Fin 4 → Fin 1024 → Fin 1024 → EReal := fun s n k => (m ((c : Thread nD τ).loc main_arg2) : S4x1024x1024.Idx → EReal) (ix3 s n k)
abbrev fWp : Fin 128 → Fin 256 → EReal := fun k d => (m ((c : Thread nD τ).loc main_arg3) : S128x256.Idx → EReal) (ix2 k d)
abbrev fBp : Fin 256 → EReal := fun d => (m ((c : Thread nD τ).loc main_arg4) : S256.Idx → EReal) (ix1 d)
abbrev fW0 : Fin 256 → Fin 256 → EReal := fun d e => (m ((c : Thread nD τ).loc main_arg5) : S256x256.Idx → EReal) (ix2 d e)
abbrev fB0 : Fin 256 → EReal := fun e => (m ((c : Thread nD τ).loc main_arg6) : S256.Idx → EReal) (ix1 e)
abbrev fW1 : Fin 4 → Fin 256 → Fin 256 → EReal := fun s d e => (m ((c : Thread nD τ).loc main_arg7) : S4x256x256.Idx → EReal) (ix3 s d e)
abbrev fB1 : Fin 4 → Fin 256 → EReal := fun s e => (m ((c : Thread nD τ).loc main_arg8) : S4x256.Idx → EReal) (ix2 s e)
abbrev fWh : Fin 256 → Fin 128 → EReal := fun d o => (m ((c : Thread nD τ).loc main_arg9) : S256x128.Idx → EReal) (ix2 d o)
abbrev fBh : Fin 128 → EReal := fun o => (m ((c : Thread nD τ).loc main_arg10) : S128.Idx → EReal) (ix1 o)
/-- The first layer's product. -/
abbrev fT : Fin 1024 → Fin 256 → EReal := Spec.T (fX m c) (fWp m c) (fBp m c) (fW0 m c)
/-- Every node's products with the four snapshots' weights. -/
abbrev fU : Fin 1024 → Fin 4 → Fin 256 → EReal := fun k => Ucol (fAf m c k) (fT m c) (fB0 m c) (fW1 m c)

/-! ## Loads of one snapshot of a block -/

theorem ldA_apply (X : Vec Ideal S2x1024x512 .f32) (s : Nat) (h : ∀ a : Fin 3, (![s, 0, 0] : Fin 3 → Nat) a + S1x1024x512.size a ≤ S2x1024x512.size a)
    (s2 : Fin 2) (hs : s2.val = s) (n : Fin 1024) (k : Fin 512) :
    View.ld X (rA s h) (ix3 (0 : Fin 1) n k) = X (ix3 s2 n k) := by
  show X ((rA s h).idx (ix3 (0 : Fin 1) n k)) = X (ix3 s2 n k)
  refine congrArg X (funext fun a => Fin.ext ?_)
  match a with
  | ⟨0, _⟩ => show s + 1 * 0 = s2.val; omega
  | ⟨1, _⟩ => show 0 + 1 * n.val = n.val; omega
  | ⟨2, _⟩ => show 0 + 1 * k.val = k.val; omega

theorem ldW_apply (X : Vec Ideal S4x256x256 .f32) (s : Nat) (h : ∀ a : Fin 3, (![s, 0, 0] : Fin 3 → Nat) a + S1x256x256.size a ≤ S4x256x256.size a)
    (s4 : Fin 4) (hs : s4.val = s) (d e : Fin 256) :
    View.ld X (rW s h) (ix3 (0 : Fin 1) d e) = X (ix3 s4 d e) := by
  show X ((rW s h).idx (ix3 (0 : Fin 1) d e)) = X (ix3 s4 d e)
  refine congrArg X (funext fun a => Fin.ext ?_)
  match a with
  | ⟨0, _⟩ => show s + 1 * 0 = s4.val; omega
  | ⟨1, _⟩ => show 0 + 1 * d.val = d.val; omega
  | ⟨2, _⟩ => show 0 + 1 * e.val = e.val; omega

/-! ## What the first point leaves -/

theorem sT_apply (n : Fin 1024) (e : Fin 256) : sT m c (ix2 n e) = fT m c n e := by
  rw [sT_eq]
  refine (pay5_apply (iblk m c 0 t0_0) (iblk m c 4 t0_0) (iblk m c 5 t0_0) (iblk m c 6 t0_0) n e).trans ?_
  have h0 : (fun n k => iblk m c 0 t0_0 (ix2 n k)) = fX m c :=
    funext fun n => funext fun k => (blk0_apply m c t0_0 n k).trans (by rw [V_main_arg0])
  have h4 : (fun k d => iblk m c 4 t0_0 (ix2 k d)) = fWp m c :=
    funext fun k => funext fun d => (blk4_apply m c t0_0 k d).trans (by rw [V_main_arg3])
  have h5 : (fun d => iblk m c 5 t0_0 (ix2 (0 : Fin 1) d)) = fBp m c :=
    funext fun d => (blk5_apply m c t0_0 0 d).trans (by rw [V_v0]; exact shapeCast_a_1a_apply _ _ 0 d)
  have h6 : (fun d e => iblk m c 6 t0_0 (ix2 d e)) = fW0 m c :=
    funext fun d => funext fun e => (blk6_apply m c t0_0 d e).trans (by rw [V_main_arg5])
  rw [h0, h4, h5, h6]

theorem sW_apply (d : Fin 256) (s : Fin 4) (e : Fin 256) : sW m c (ix2 d (col s e)) = fW1 m c s d e := by
  rw [sW_eq]
  match s with
  | ⟨0, _⟩ => exact (pay6_col0 _ _ _ _ d e).trans ((ldW_apply _ 0 _ 0 rfl d e).trans ((blk8_apply m c t0_0 0 d e).trans (by rw [V_main_arg7] <;> rfl)))
  | ⟨1, _⟩ => exact (pay6_col1 _ _ _ _ d e).trans ((ldW_apply _ 1 _ 1 rfl d e).trans ((blk8_apply m c t0_0 1 d e).trans (by rw [V_main_arg7] <;> rfl)))
  | ⟨2, _⟩ => exact (pay6_col2 _ _ _ _ d e).trans ((ldW_apply _ 2 _ 2 rfl d e).trans ((blk8_apply m c t0_0 2 d e).trans (by rw [V_main_arg7] <;> rfl)))
  | ⟨3, _⟩ => exact (pay6_col3 _ _ _ _ d e).trans ((ldW_apply _ 3 _ 3 rfl d e).trans ((blk8_apply m c t0_0 3 d e).trans (by rw [V_main_arg7] <;> rfl)))

/-! ## One point's block of products -/

theorem u_apply (t : Fin cfg0.N) (cb : Fin 2) (hcb : cb.val = t.val) (k : Fin 512) (s : Fin 4) (e : Fin 256) :
    k0_pay7 (F := Ideal) (iblk m c 1 t) (sT m c) (iblk m c 7 t) (sW m c) (ix2 k (col s e)) = fU m c (rowOf cb k) s e := by
  refine (pay7_apply (iblk m c 1 t) (sT m c) (iblk m c 7 t) (sW m c) k (col s e)).trans ?_
  have h1 : (fun k' => iblk m c 1 t (ix2 k k')) = fAf m c (rowOf cb k) :=
    funext fun k' => (blk1_apply m c t cb hcb k k').trans (by rw [V_main_arg1])
  have hT : (fun k' e => sT m c (ix2 k' e)) = fT m c := funext fun k' => funext fun e => sT_apply m c k' e
  have h7 : (fun e => iblk m c 7 t (ix2 (0 : Fin 1) e)) = fB0 m c :=
    funext fun e => (blk7_apply m c t 0 e).trans (by rw [V_v1]; exact shapeCast_a_1a_apply _ _ 0 e)
  rw [h1, hT, h7]
  show _ = ∑ d : Fin 256, normRow (P1 (fAf m c (rowOf cb k)) (fT m c) (fB0 m c)) d * fW1 m c s d e
  exact Finset.sum_congr rfl fun d _ => congrArg (fun w : EReal => normRow (P1 (fAf m c (rowOf cb k)) (fT m c) (fB0 m c)) d * w) (sW_apply m c d s e)

theorem block_apply (t : Fin cfg0.N) (cb : Fin 2) (hcb : cb.val = t.val) (n : Fin 1024) (e : Fin 256) :
    k0_pay1 (F := Ideal) (k0_pay7 (iblk m c 1 t) (sT m c) (iblk m c 7 t) (sW m c))
      (k0_pay8 (iblk m c 1 t) (sT m c) (iblk m c 7 t) (sW m c) (View.ld (iblk m c 2 t) (rA 0 inb_S2x1024x512_S1x1024x512_0_0_0)) (View.ld (iblk m c 2 t) (rA 1 inb_S2x1024x512_S1x1024x512_1_0_0)))
      (View.ld (iblk m c 3 t) (rA 0 inb_S2x1024x512_S1x1024x512_0_0_0)) (View.ld (iblk m c 3 t) (rA 1 inb_S2x1024x512_S1x1024x512_1_0_0)) (ix2 n e)
      = part cb (fAs m c) (fU m c) n e := by
  refine (pay1_apply _ _ _ _ n e).trans ?_
  unfold part
  refine congrArg₂ (· + ·) (congrArg₂ (· + ·) ((pay8_apply _ _ _ _ _ _ n e).trans (congrArg₂ (· + ·) ?_ ?_)) ?_) ?_
  · exact Finset.sum_congr rfl fun k _ => congrArg₂ (· * ·)
      ((ldA_apply _ 0 _ 0 rfl n k).trans ((blk2_apply m c t cb hcb 0 0 rfl n k).trans (by rw [V_main_arg2]))) (u_apply m c t cb hcb k 0 e)
  · exact Finset.sum_congr rfl fun k _ => congrArg₂ (· * ·)
      ((ldA_apply _ 1 _ 1 rfl n k).trans ((blk2_apply m c t cb hcb 1 1 rfl n k).trans (by rw [V_main_arg2]))) (u_apply m c t cb hcb k 1 e)
  · exact Finset.sum_congr rfl fun k _ => congrArg₂ (· * ·)
      ((ldA_apply _ 0 _ 0 rfl n k).trans ((blk3_apply m c t cb hcb 0 2 rfl n k).trans (by rw [V_main_arg2]))) (u_apply m c t cb hcb k 2 e)
  · exact Finset.sum_congr rfl fun k _ => congrArg₂ (· * ·)
      ((ldA_apply _ 1 _ 1 rfl n k).trans ((blk3_apply m c t cb hcb 1 3 rfl n k).trans (by rw [V_main_arg2]))) (u_apply m c t cb hcb k 3 e)

/-! ## The running sum and the result -/

theorem sAcc1_apply (n : Fin 1024) (e : Fin 256) : sAcc1 m c (ix2 n e) = part 0 (fAs m c) (fU m c) n e + part 1 (fAs m c) (fU m c) n e := by
  rw [sAcc1_eq]
  refine (pay3_apply _ _ _ _ _ (ix2 n e)).trans (congrArg₂ (· + ·) ?_ (block_apply m c t0_1 1 rfl n e))
  rw [sAcc0_eq]
  exact (congrFun (pay2_eq _ _ _ _) _).trans (block_apply m c t0_0 0 rfl n e)

theorem sOut_apply (n : Fin 1024) (o : Fin 128) :
    sOut m c (ix2 n o) = result (fX m c) (fAf m c) (fAs m c) (fWp m c) (fBp m c) (fW0 m c) (fB0 m c) (fW1 m c) (fB1 m c) (fWh m c) (fBh m c) n o := by
  rw [sOut_eq]
  refine (pay4_apply (iblk m c 9 t0_1) (sAcc1 m c) (iblk m c 10 t0_1) (iblk m c 11 t0_1) n o).trans ?_
  show _ = out (whole (fAs m c) (fU m c)) (fun e => ∑ s : Fin 4, fB1 m c s e) (fWh m c) (fBh m c) n o
  refine out_congr (fun n e => (sAcc1_apply m c n e).trans (whole_eq_parts _ _ n e).symm) (fun e => ?_) (fun d o => ?_) (fun o => ?_) n o
  · exact Finset.sum_congr rfl fun s _ => (blk9_apply m c t0_1 s 0 e).trans (by rw [V_v2]; exact shapeCast_ab_a1b_apply _ _ s 0 e)
  · exact (blk10_apply m c t0_1 d o).trans (by rw [V_main_arg9])
  · exact (blk11_apply m c t0_1 0 o).trans (by rw [V_v3]; exact shapeCast_a_1a_apply _ _ 0 o)

/-- The result block as the network's formula of the argument arrays. -/
abbrev kOut : Buf (Elt Ideal) ((cfg0.win 12).arr.view.loc (c.tc : Thread nD τ)) := fun i => sOut m c i

theorem kOut_eq : (kOut m c : S1024x128.Idx → EReal)
    = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  funext fun i => by
    obtain ⟨n, o, rfl⟩ : ∃ (n : Fin 1024) (o : Fin 128), i = ix2 n o := ⟨i 0, i 1, eq_ix2 i⟩
    exact sOut_apply m c n o

/-! ## The result array after the run -/

/-- The result window's one block is its whole array: what is written back is what the buffer holds. -/
theorem flushed_of (X : S1024x128.Idx → Elt Ideal .f32) (t : Fin cfg0.N) :
    (cfg0.win 12).cut (grid0.coords t) X
      = ((cfg0.win 12).blk t).view.read (Elt Ideal) (X : Buf (Elt Ideal) ((cfg0.win 12).arr.view.loc (c.tc : Thread nD τ))) := by
  obtain ⟨e0, e1⟩ := idx12 t
  funext j
  show X j = X (((cfg0.win 12).blk t).view.emb j)
  refine congrArg X (funext fun a => Fin.ext ?_)
  match a with
  | ⟨0, _⟩ => show (j 0).val = win0_12.index t (0 : Fin 2) * 1024 + 1 * (j 0).val; omega
  | ⟨1, _⟩ => show (j 1).val = win0_12.index t (1 : Fin 2) * 128 + 1 * (j 1).val; omega

theorem flushed_eq (t : Fin cfg0.N) (hf : (cfg0.win 12).flush t = true) :
    (dats m 0 c).flushed 12 t = ((cfg0.win 12).blk t).view.read (Elt Ideal) (kOut m c) := by
  show (cfg0.win 12).cut (grid0.coords t) ((dats m 0 c).after 12 t) = _
  rw [after_12]
  exact flushed_of (sOut m c) t

theorem final : (dats m 0 c).arrAt 12 cfg0.N = kOut m c :=
  (dats m 0 c).arrAt_eq_of_cover 12 (kOut m c) (flushed_eq m c) fun i =>
    ⟨t0_1, (flush0_12 t0_1).mpr rfl, by
      show i ∈ ((View.whole main_v4).slice (win0_12.rect t0_1)).set
      rw [View.set_slice_whole, Rect.mem_set_unit]
      intro a
      have h0 : (i 0 : Nat) < 1024 := (i 0).isLt
      have h1 : (i 1 : Nat) < 128 := (i 1).isLt
      match a with
      | ⟨0, _⟩ => show win0_12.index t0_1 0 * win0_12.size 0 ≤ (i 0 : Nat) ∧ (i 0 : Nat) < win0_12.index t0_1 0 * win0_12.size 0 + win0_12.xsize (grid0.coords t0_1) 0
                  rw [show win0_12.index t0_1 0 * win0_12.size 0 = 0 from by decide +kernel, show win0_12.xsize (grid0.coords t0_1) 0 = 1024 from by decide +kernel]; omega
      | ⟨1, _⟩ => show win0_12.index t0_1 1 * win0_12.size 1 ≤ (i 1 : Nat) ∧ (i 1 : Nat) < win0_12.index t0_1 1 * win0_12.size 1 + win0_12.xsize (grid0.coords t0_1) 1
                  rw [show win0_12.index t0_1 1 * win0_12.size 1 = 0 from by decide +kernel, show win0_12.xsize (grid0.coords t0_1) 1 = 128 from by decide +kernel]; omega⟩

/-- The run, read: the result array at the network's formula of the arguments, the arguments unchanged. -/
theorem run : θ_run defs (onTc (τ := τ) (main (F := Ideal))) ⟨m, fun _ => 0, ρ⟩ (fun r => ∀ c : Dev nD,
      r.2.mem ((c.tc : Thread nD τ).loc main_v4) = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 12).trans ((final m c).trans (kOut_eq m c)), args_kept m r h c⟩) (run_main m ρ)

end Cert.KernelIdeal.HandValue

end
-- ==== Proof.RI.Payload.lean ====
/-
  The reference body's arithmetic, one entry at a time, at the exact instance: each payload of the body as the
  plain formula of its loaded blocks (the formulas of the specification).
-/
import proofs.«118711_g2000205832823720_pallasbulk_239_23_alg».proof.Proof.Gen.ReferenceIdeal.Skeleton
import proofs.«118711_g2000205832823720_pallasbulk_239_23_alg».proof.Proof.LibPlainLayers
import proofs.«118711_g2000205832823720_pallasbulk_239_23_alg».proof.Proof.Spec
import Idealize.ShloMosaic.Lib.ValueLayout
import Idealize.ShloMosaic.Lib.Pipeline.Value

set_option maxRecDepth 16384

noncomputable section

open scoped BigOperators

namespace Cert.ReferenceIdeal.HandValue

open Idealize.ShloMosaic Idealize.ShloMosaic.ValueIdx
open Cert.ReferenceIdeal Cert.ReferenceIdeal.Gen Cert.PlainLayers Cert.Spec

/-- The first layer's activations times the second layer's weights, as the body computes it on the way. -/
def refT (v0 : FVec Ideal S1024x128 .f32) (v1 : FVec Ideal S128x256 .f32) (v3 : FVec Ideal S1x256 .f32) (v9 : FVec Ideal S256x256 .f32) : FVec Ideal S1024x256 .f32 :=
  matmul dot_S1024x256_S256x256_S1024x256_1_0_0_1_n_n none
    (maximumf (addf (matmul dot_S1024x128_S128x256_S1024x256_1_0_0_1_n_n none v0 v1 (constant S1024x256 .f32 0x00000000#32))
        (broadcastTo S1024x256 (shapeCast S1x256 v3 shapeCasts_S1x256_S1x256) broadcasts_S1x256_S1024x256))
      (broadcast S1024x256 (Scalar.ofBits (F := Ideal) .f32 0x00000000#32)))
    v9 (constant S1024x256 .f32 0x00000000#32)

theorem refT_apply (v0 : FVec Ideal S1024x128 .f32) (v1 : FVec Ideal S128x256 .f32) (v3 : FVec Ideal S1x256 .f32) (v9 : FVec Ideal S256x256 .f32)
    (n : Fin 1024) (e : Fin 256) :
    refT v0 v1 v3 v9 (ix2 n e)
      = Spec.T (fun n k => v0 (ix2 n k)) (fun k d => v1 (ix2 k d)) (fun d => v3 (ix2 (0 : Fin 1) d)) (fun d e => v9 (ix2 d e)) n e := by
  unfold refT Spec.T
  refine (plainMM_of_eq dot_S1024x256_S256x256_S1024x256_1_0_0_1_n_n rfl none _ v9 n e).trans ?_
  exact Finset.sum_congr rfl fun d _ => congrArg (· * v9 (ix2 d e))
    (dense_relu_apply dot_S1024x128_S128x256_S1024x256_1_0_0_1_n_n rfl none v0 v1 v3 shapeCasts_S1x256_S1x256 broadcasts_S1x256_S1024x256 n d)

/-- Every node's second layer from the full adjacency, a given first-layer product, the bias row and the flattened
    snapshot weights: the body's operations after the first-layer product. -/
def rowsU (v11 : FVec Ideal S1024x1024 .f32) (v10 : FVec Ideal S1024x256 .f32) (v13 : FVec Ideal S1x256 .f32) (v27 : FVec Ideal S256x1024 .f32) : FVec Ideal S1024x1024 .f32 :=
  have cst_11 : FVec Ideal S1024x256 .f32 := constant S1024x256 .f32 0x00000000#32
  have v12 : FVec Ideal S1024x256 .f32 := matmul dot_S1024x1024_S1024x256_S1024x256_1_0_0_1_n_n none v11 v10 cst_11
  have v14 : FVec Ideal S1x256 .f32 := shapeCast S1x256 v13 shapeCasts_S1x256_S1x256
  have v15 : FVec Ideal S1024x256 .f32 := broadcastTo S1024x256 v14 broadcasts_S1x256_S1024x256
  have v16 : FVec Ideal S1024x256 .f32 := addf v12 v15
  have cst_14 : Ideal .f32 := Scalar.ofBits .f32 0x00000000#32
  have v17 : FVec Ideal S1024x256 .f32 := broadcast S1024x256 cst_14
  have v18 : FVec Ideal S1024x256 .f32 := maximumf v16 v17
  have v19 : FVec Ideal S1024x256 .f32 := mulf v18 v18
  have v20 : FVec Ideal S1024 .f32 := multiReduction .add [1] S1024 v19 0x00000000#32 reduces_S1024x256_S1024 (.inl rfl) rfl
  have v21 : FVec Ideal S1024x1 .f32 := shapeCast S1024x1 v20 shapeCasts_S1024_S1024x1
  have cst_16 : Ideal .f32 := Scalar.ofBits .f32 0x179ABE15#32
  have v22 : FVec Ideal S1024x1 .f32 := broadcast S1024x1 cst_16
  have v23 : FVec Ideal S1024x1 .f32 := maximumf v21 v22
  have v24 : FVec Ideal S1024x1 .f32 := rsqrt v23
  have v25 : FVec Ideal S1024x256 .f32 := broadcastTo S1024x256 v24 broadcasts_S1024x1_S1024x256
  have v26 : FVec Ideal S1024x256 .f32 := mulf v18 v25
  have v28 : FVec Ideal S256x1024 .f32 := shapeCast S256x1024 v27 shapeCasts_S256x1024_S256x1024
  have cst_19 : FVec Ideal S1024x1024 .f32 := constant S1024x1024 .f32 0x00000000#32
  have v29 : FVec Ideal S1024x1024 .f32 := matmul dot_S1024x256_S256x1024_S1024x1024_1_0_0_1_n_n none v26 v28 cst_19
  v29

theorem rowsU_apply (v11 : FVec Ideal S1024x1024 .f32) (v10 : FVec Ideal S1024x256 .f32) (v13 : FVec Ideal S1x256 .f32) (v27 : FVec Ideal S256x1024 .f32)
    (n : Fin 1024) (j : Fin 1024) :
    rowsU v11 v10 v13 v27 (ix2 n j)
      = ∑ d : Fin 256, normRow (P1 (fun k => v11 (ix2 n k)) (fun k e => v10 (ix2 k e)) (fun e => v13 (ix2 (0 : Fin 1) e))) d * v27 (ix2 d j) := by
  unfold rowsU
  refine (plainMM_of_eq dot_S1024x256_S256x1024_S1024x1024_1_0_0_1_n_n rfl none _ _ n j).trans ?_
  refine Finset.sum_congr rfl fun d _ => congrArg₂ (· * ·) ?_ (congrFun (shapeCast_self v27 shapeCasts_S256x1024_S256x1024) _)
  exact l2norm_apply_of _ (P1 (fun k => v11 (ix2 n k)) (fun k e => v10 (ix2 k e)) (fun e => v13 (ix2 (0 : Fin 1) e))) n
    (fun e => dense_relu_apply dot_S1024x1024_S1024x256_S1024x256_1_0_0_1_n_n rfl none v11 v10 v13 shapeCasts_S1x256_S1x256 broadcasts_S1x256_S1024x256 n e)
    0x00000000#32 reduces_S1024x256_S1024 (.inl rfl) rfl shapeCasts_S1024_S1024x1 0x179ABE15#32 broadcasts_S1024x1_S1024x256 d

/-- The body's products are those operations after its own first-layer product. -/
theorem pay1_eq (v0 : Vec Ideal S1024x128 .f32) (v1 : Vec Ideal S128x256 .f32) (v3 : Vec Ideal S1x256 .f32) (v9 : Vec Ideal S256x256 .f32)
    (v11 : Vec Ideal S1024x1024 .f32) (v13 : Vec Ideal S1x256 .f32) (v27 : Vec Ideal S256x1024 .f32) :
    k0_pay1 (F := Ideal) v0 v1 v3 v9 v11 v13 v27 = rowsU v11 (refT v0 v1 v3 v9) v13 v27 := rfl

/-- One snapshot's adjacency as a matrix. -/
theorem pay2_apply (v30 : Vec Ideal S1x1024x1024 .f32) (n k : Fin 1024) : k0_pay2 (F := Ideal) v30 (ix2 n k) = v30 (ix3 (0 : Fin 1) n k) := by
  unfold k0_pay2; exact shapeCast_1ab_ab_apply v30 shapeCasts_S1x1024x1024_S1024x1024 n k

/-- The first snapshot's columns of the products. -/
theorem pay3_apply (v0 : Vec Ideal S1024x128 .f32) (v1 : Vec Ideal S128x256 .f32) (v3 : Vec Ideal S1x256 .f32) (v9 : Vec Ideal S256x256 .f32)
    (v11 : Vec Ideal S1024x1024 .f32) (v13 : Vec Ideal S1x256 .f32) (v27 : Vec Ideal S256x1024 .f32) (k : Fin 1024) (e : Fin 256) :
    k0_pay3 (F := Ideal) v0 v1 v3 v9 v11 v13 v27 (ix2 k e) = k0_pay1 (F := Ideal) v0 v1 v3 v9 v11 v13 v27 (ix2 k (col 0 e)) := by
  unfold k0_pay3
  exact slice2_axis1_apply 0 _ slices_S1024x1024_o0_0_S1024x256 k e (col 0 e) (by show 256 * 0 + e.val = 0 + e.val; omega)

/-- The snapshot sum and the head. -/
theorem pay4_apply (v29 : FVec Ideal S1024x1024 .f32) (v31 : FVec Ideal S1024x1024 .f32) (v32 : FVec Ideal S1024x256 .f32) (cst : FVec Ideal S1024x256 .f32)
    (v34 v39 v44 : Vec Ideal S1x1024x1024 .f32) (v49 : Vec Ideal S1x256 .f32) (v63 : Vec Ideal S256x128 .f32) (v65 : Vec Ideal S1x128 .f32)
    (n : Fin 1024) (o : Fin 128) :
    k0_pay4 (F := Ideal) v29 v31 v32 cst v34 v39 v44 v49 v63 v65 (ix2 n o)
      = out (fun n e => (((cst (ix2 n e) + ∑ k : Fin 1024, v31 (ix2 n k) * v32 (ix2 k e))
            + ∑ k : Fin 1024, v34 (ix3 (0 : Fin 1) n k) * v29 (ix2 k (col 1 e)))
            + ∑ k : Fin 1024, v39 (ix3 (0 : Fin 1) n k) * v29 (ix2 k (col 2 e)))
            + ∑ k : Fin 1024, v44 (ix3 (0 : Fin 1) n k) * v29 (ix2 k (col 3 e)))
          (fun e => v49 (ix2 (0 : Fin 1) e)) (fun d o => v63 (ix2 d o)) (fun o => v65 (ix2 (0 : Fin 1) o)) n o := by
  unfold k0_pay4 out
  refine (addf_apply _ _ _).trans (congrArg₂ (· + ·) ?_ ?_)
  · refine (plainMM_of_eq dot_S1024x256_S256x128_S1024x128_1_0_0_1_n_n rfl none _ v63 n o).trans ?_
    refine Finset.sum_congr rfl fun d _ => congrArg (· * v63 (ix2 d o)) ?_
    refine l2norm_apply_of _ (fun e => max (((((cst (ix2 n e) + ∑ k : Fin 1024, v31 (ix2 n k) * v32 (ix2 k e))
            + ∑ k : Fin 1024, v34 (ix3 (0 : Fin 1) n k) * v29 (ix2 k (col 1 e)))
            + ∑ k : Fin 1024, v39 (ix3 (0 : Fin 1) n k) * v29 (ix2 k (col 2 e)))
            + ∑ k : Fin 1024, v44 (ix3 (0 : Fin 1) n k) * v29 (ix2 k (col 3 e))) + v49 (ix2 (0 : Fin 1) e)) 0) n (fun e => ?_)
      0x00000000#32 reduces_S1024x256_S1024 (.inl rfl) rfl shapeCasts_S1024_S1024x1 0x179ABE15#32 broadcasts_S1024x1_S1024x256 d
    refine congrArg₂ max ((addf_apply _ _ _).trans (congrArg₂ (· + ·) ?_ ?_)) Ideal.ofBits_zero_f32
    · refine (addf_apply _ _ _).trans (congrArg₂ (· + ·) ((addf_apply _ _ _).trans (congrArg₂ (· + ·) ((addf_apply _ _ _).trans (congrArg₂ (· + ·) ?_ ?_)) ?_)) ?_)
      · exact plainMM_acc_of_eq dot_S1024x1024_S1024x256_S1024x256_1_0_0_1_n_n rfl none v31 v32 cst n e
      · refine (plainMM_of_eq dot_S1024x1024_S1024x256_S1024x256_1_0_0_1_n_n rfl none _ _ n e).trans ?_
        exact Finset.sum_congr rfl fun k _ => congrArg₂ (· * ·) (shapeCast_1ab_ab_apply v34 shapeCasts_S1x1024x1024_S1024x1024 n k)
          (slice2_axis1_apply 256 _ slices_S1024x1024_o0_256_S1024x256 k e (col 1 e) (by show 256 * 1 + e.val = 256 + e.val; omega))
      · refine (plainMM_of_eq dot_S1024x1024_S1024x256_S1024x256_1_0_0_1_n_n rfl none _ _ n e).trans ?_
        exact Finset.sum_congr rfl fun k _ => congrArg₂ (· * ·) (shapeCast_1ab_ab_apply v39 shapeCasts_S1x1024x1024_S1024x1024 n k)
          (slice2_axis1_apply 512 _ slices_S1024x1024_o0_512_S1024x256 k e (col 2 e) (by show 256 * 2 + e.val = 512 + e.val; omega))
      · refine (plainMM_of_eq dot_S1024x1024_S1024x256_S1024x256_1_0_0_1_n_n rfl none _ _ n e).trans ?_
        exact Finset.sum_congr rfl fun k _ => congrArg₂ (· * ·) (shapeCast_1ab_ab_apply v44 shapeCasts_S1x1024x1024_S1024x1024 n k)
          (slice2_axis1_apply 768 _ slices_S1024x1024_o0_768_S1024x256 k e (col 3 e) (by show 256 * 3 + e.val = 768 + e.val; omega))
    · exact (broadcastTo_1b_ab_apply _ broadcasts_S1x256_S1024x256 n e).trans (congrFun (shapeCast_self v49 shapeCasts_S1x256_S1x256) _)
  · exact (broadcastTo_1b_ab_apply _ broadcasts_S1x128_S1024x128 n o).trans (congrFun (shapeCast_self v65 shapeCasts_S1x128_S1x128) _)

end Cert.ReferenceIdeal.HandValue

end
-- ==== Proof.RI.Value.lean ====
/-
  The reference's result as the network's formula of the argument arrays.

  The reference runs the whole network at one grid point on whole arrays; its host lines before the kernel lay the
  four snapshots' weight matrices side by side (a transpose and a reshape), sum the four snapshot biases, and recast
  the bias vectors as rows.
-/
import proofs.«118711_g2000205832823720_pallasbulk_239_23_alg».proof.Proof.Gen.ReferenceIdeal.Frame
import proofs.«118711_g2000205832823720_pallasbulk_239_23_alg».proof.Proof.RI.Payload
import Idealize.ShloMosaic.Lib.StableHlo.Run
import Idealize.ShloMosaic.Lib.IdealHost
import Idealize.ShloMosaic.Lib.Pipeline.Value

set_option maxRecDepth 16384

noncomputable section

open scoped BigOperators

namespace Cert.ReferenceIdeal.HandValue

open Idealize.ShloMosaic Idealize.ShloMosaic.ValueIdx
open Idealize.ShloMosaic.TcCoe Idealize.SL Idealize.SL.Sem Idealize.ShloMosaic.Pipeline
open Cert.ReferenceIdeal Cert.ReferenceIdeal.Gen Cert.Spec

variable (m : (ℓ : Loc nD τ sig) → Buf (Elt Ideal) ℓ) (ρ : Dev nD → PrngReg) (c : Dev nD)

theorem hz2 : (![0, 0] : Fin 2 → Nat) = fun _ => 0 := by funext a; fin_cases a <;> rfl

/-! ## The printed index maps: every block is its whole array -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

theorem blk0_apply (t : Fin cfg0.N) (p : Fin 1024) (q : Fin 128) :
    iblk m c 0 t (ix2 p q) = V m c main_arg0 (ix2 p q) := by
  obtain ⟨e0, e1⟩ := idx0 t
  show V m c main_arg0 (((cfg0.win 0).blk t).view.emb (ix2 p q)) = V m c main_arg0 (ix2 p q)
  refine congrArg (V m c main_arg0) (funext fun a => Fin.ext ?_)
  match a with
  | ⟨0, _⟩ => show win0_0.index t (0 : Fin 2) * 1024 + 1 * p.val = p.val; omega
  | ⟨1, _⟩ => show win0_0.index t (1 : Fin 2) * 128 + 1 * q.val = q.val; omega
theorem blk1_apply (t : Fin cfg0.N) (p : Fin 1024) (q : Fin 1024) :
    iblk m c 1 t (ix2 p q) = V m c main_arg1 (ix2 p q) := by
  obtain ⟨e0, e1⟩ := idx1 t
  show V m c main_arg1 (((cfg0.win 1).blk t).view.emb (ix2 p q)) = V m c main_arg1 (ix2 p q)
  refine congrArg (V m c main_arg1) (funext fun a => Fin.ext ?_)
  match a with
  | ⟨0, _⟩ => show win0_1.index t (0 : Fin 2) * 1024 + 1 * p.val = p.val; omega
  | ⟨1, _⟩ => show win0_1.index t (1 : Fin 2) * 1024 + 1 * q.val = q.val; omega
theorem blk2_apply (t : Fin cfg0.N) (p : Fin 4) (q : Fin 1024) (r : Fin 1024) :
    iblk m c 2 t (ix3 p q r) = V m c main_arg2 (ix3 p q r) := by
  obtain ⟨e0, e1, e2⟩ := idx2 t
  show V m c main_arg2 (((cfg0.win 2).blk t).view.emb (ix3 p q r)) = V m c main_arg2 (ix3 p q r)
  refine congrArg (V m c main_arg2) (funext fun a => Fin.ext ?_)
  match a with
  | ⟨0, _⟩ => show win0_2.index t (0 : Fin 3) * 4 + 1 * p.val = p.val; omega
  | ⟨1, _⟩ => show win0_2.index t (1 : Fin 3) * 1024 + 1 * q.val = q.val; omega
  | ⟨2, _⟩ => show win0_2.index t (2 : Fin 3) * 1024 + 1 * r.val = r.val; omega
theorem blk3_apply (t : Fin cfg0.N) (p : Fin 128) (q : Fin 256) :
    iblk m c 3 t (ix2 p q) = V m c main_arg3 (ix2 p q) := by
  obtain ⟨e0, e1⟩ := idx3 t
  show V m c main_arg3 (((cfg0.win 3).blk t).view.emb (ix2 p q)) = V m c main_arg3 (ix2 p q)
  refine congrArg (V m c main_arg3) (funext fun a => Fin.ext ?_)
  match a with
  | ⟨0, _⟩ => show win0_3.index t (0 : Fin 2) * 128 + 1 * p.val = p.val; omega
  | ⟨1, _⟩ => show win0_3.index t (1 : Fin 2) * 256 + 1 * q.val = q.val; omega
theorem blk4_apply (t : Fin cfg0.N) (p : Fin 1) (q : Fin 256) :
    iblk m c 4 t (ix2 p q) = V m c main_v2 (ix2 p q) := by
  obtain ⟨e0, e1⟩ := idx4 t
  show V m c main_v2 (((cfg0.win 4).blk t).view.emb (ix2 p q)) = V m c main_v2 (ix2 p q)
  refine congrArg (V m c main_v2) (funext fun a => Fin.ext ?_)
  match a with
  | ⟨0, _⟩ => show win0_4.index t (0 : Fin 2) * 1 + 1 * p.val = p.val; omega
  | ⟨1, _⟩ => show win0_4.index t (1 : Fin 2) * 256 + 1 * q.val = q.val; omega
theorem blk5_apply (t : Fin cfg0.N) (p : Fin 256) (q : Fin 256) :
    iblk m c 5 t (ix2 p q) = V m c main_arg5 (ix2 p q) := by
  obtain ⟨e0, e1⟩ := idx5 t
  show V m c main_arg5 (((cfg0.win 5).blk t).view.emb (ix2 p q)) = V m c main_arg5 (ix2 p q)
  refine congrArg (V m c main_arg5) (funext fun a => Fin.ext ?_)
  match a with
  | ⟨0, _⟩ => show win0_5.index t (0 : Fin 2) * 256 + 1 * p.val = p.val; omega
  | ⟨1, _⟩ => show win0_5.index t (1 : Fin 2) * 256 + 1 * q.val = q.val; omega
theorem blk6_apply (t : Fin cfg0.N) (p : Fin 1) (q : Fin 256) :
    iblk m c 6 t (ix2 p q) = V m c main_v3 (ix2 p q) := by
  obtain ⟨e0, e1⟩ := idx6 t
  show V m c main_v3 (((cfg0.win 6).blk t).view.emb (ix2 p q)) = V m c main_v3 (ix2 p q)
  refine congrArg (V m c main_v3) (funext fun a => Fin.ext ?_)
  match a with
  | ⟨0, _⟩ => show win0_6.index t (0 : Fin 2) * 1 + 1 * p.val = p.val; omega
  | ⟨1, _⟩ => show win0_6.index t (1 : Fin 2) * 256 + 1 * q.val = q.val; omega
theorem blk7_apply (t : Fin cfg0.N) (p : Fin 256) (q : Fin 1024) :
    iblk m c 7 t (ix2 p q) = V m c main_v1 (ix2 p q) := by
  obtain ⟨e0, e1⟩ := idx7 t
  show V m c main_v1 (((cfg0.win 7).blk t).view.emb (ix2 p q)) = V m c main_v1 (ix2 p q)
  refine congrArg (V m c main_v1) (funext fun a => Fin.ext ?_)
  match a with
  | ⟨0, _⟩ => show win0_7.index t (0 : Fin 2) * 256 + 1 * p.val = p.val; omega
  | ⟨1, _⟩ => show win0_7.index t (1 : Fin 2) * 1024 + 1 * q.val = q.val; omega
theorem blk8_apply (t : Fin cfg0.N) (p : Fin 1) (q : Fin 256) :
    iblk m c 8 t (ix2 p q) = V m c main_v5 (ix2 p q) := by
  obtain ⟨e0, e1⟩ := idx8 t
  show V m c main_v5 (((cfg0.win 8).blk t).view.emb (ix2 p q)) = V m c main_v5 (ix2 p q)
  refine congrArg (V m c main_v5) (funext fun a => Fin.ext ?_)
  match a with
  | ⟨0, _⟩ => show win0_8.index t (0 : Fin 2) * 1 + 1 * p.val = p.val; omega
  | ⟨1, _⟩ => show win0_8.index t (1 : Fin 2) * 256 + 1 * q.val = q.val; omega
theorem blk9_apply (t : Fin cfg0.N) (p : Fin 256) (q : Fin 128) :
    iblk m c 9 t (ix2 p q) = V m c main_arg9 (ix2 p q) := by
  obtain ⟨e0, e1⟩ := idx9 t
  show V m c main_arg9 (((cfg0.win 9).blk t).view.emb (ix2 p q)) = V m c main_arg9 (ix2 p q)
  refine congrArg (V m c main_arg9) (funext fun a => Fin.ext ?_)
  match a with
  | ⟨0, _⟩ => show win0_9.index t (0 : Fin 2) * 256 + 1 * p.val = p.val; omega
  | ⟨1, _⟩ => show win0_9.index t (1 : Fin 2) * 128 + 1 * q.val = q.val; omega
theorem blk10_apply (t : Fin cfg0.N) (p : Fin 1) (q : Fin 128) :
    iblk m c 10 t (ix2 p q) = V m c main_v6 (ix2 p q) := by
  obtain ⟨e0, e1⟩ := idx10 t
  show V m c main_v6 (((cfg0.win 10).blk t).view.emb (ix2 p q)) = V m c main_v6 (ix2 p q)
  refine congrArg (V m c main_v6) (funext fun a => Fin.ext ?_)
  match a with
  | ⟨0, _⟩ => show win0_10.index t (0 : Fin 2) * 1 + 1 * p.val = p.val; omega
  | ⟨1, _⟩ => show win0_10.index t (1 : Fin 2) * 128 + 1 * q.val = q.val; omega

/-! ## The host lines before the kernel -/

theorem V_v2 : (V m c main_v2 : S1x256.Idx → Elt Ideal .f32) = shapeCast S1x256 (m ((c : Thread nD τ).loc main_arg4)) shapeCasts_S256_S1x256 := by
  dsimp only [V, hostOps0]; after_results; rfl
theorem V_v3 : (V m c main_v3 : S1x256.Idx → Elt Ideal .f32) = shapeCast S1x256 (m ((c : Thread nD τ).loc main_arg6)) shapeCasts_S256_S1x256 := by
  dsimp only [V, hostOps0]; after_results; rfl
theorem V_v6 : (V m c main_v6 : S1x128.Idx → Elt Ideal .f32) = shapeCast S1x128 (m ((c : Thread nD τ).loc main_arg10)) shapeCasts_S128_S1x128 := by
  dsimp only [V, hostOps0]; after_results; rfl
theorem V_v1 : (V m c main_v1 : S256x1024.Idx → Elt Ideal .f32)
    = shapeCast S256x1024 (transpose S256x4x256 [1, 0, 2] (m ((c : Thread nD τ).loc main_arg7)) transposes_S4x256x256_S256x4x256_1_0_2) shapeCasts_S256x4x256_S256x1024 := by
  dsimp only [V, hostOps0]; after_results; rfl
theorem V_v5 : (V m c main_v5 : S1x256.Idx → Elt Ideal .f32)
    = shapeCast S1x256 (Host.reduceAdd (F := Ideal) (m ((c : Thread nD τ).loc main_arg8)) (constant S_ .f32 0x00000000#32) reducesTo_S4x256_S256_d0 h_S_) shapeCasts_S256_S1x256 := by
  dsimp only [V, hostOps0]; after_results; rfl

/-- The flattened weights: column 256·s + e of row d is snapshot s's weight at (d, e). -/
theorem w1flat_apply (d : Fin 256) (s : Fin 4) (e : Fin 256) :
    (V m c main_v1 : S256x1024.Idx → Elt Ideal .f32) (ix2 d (col s e)) = (m ((c : Thread nD τ).loc main_arg7) : S4x256x256.Idx → EReal) (ix3 s d e) := by
  rw [V_v1]
  refine (shapeCast_apply _ shapeCasts_S256x4x256_S256x1024 (ix2 d (col s e)) (ix3 d s e) ?_).trans ?_
  · rw [Shape.rowMajor_val_three, Shape.rowMajor_val_two]
    show (d.val * 4 + s.val) * 256 + e.val = d.val * 1024 + (256 * s.val + e.val)
    omega
  · exact transpose_apply _ _ transposes_S4x256x256_S256x4x256_1_0_2 (ix3 d s e) (ix3 s d e)
      fun b => match b with | ⟨0, _⟩ => rfl | ⟨1, _⟩ => rfl | ⟨2, _⟩ => rfl

/-! ## The argument arrays as plain functions -/

abbrev fX : Fin 1024 → Fin 128 → EReal := fun n k => (m ((c : Thread nD τ).loc main_arg0) : S1024x128.Idx → EReal) (ix2 n k)
abbrev fAf : Fin 1024 → Fin 1024 → EReal := fun n k => (m ((c : Thread nD τ).loc main_arg1) : S1024x1024.Idx → EReal) (ix2 n k)
abbrev fAs : Fin 4 → Fin 1024 → Fin 1024 → EReal := fun s n k => (m ((c : Thread nD τ).loc main_arg2) : S4x1024x1024.Idx → EReal) (ix3 s n k)
abbrev fWp : Fin 128 → Fin 256 → EReal := fun k d => (m ((c : Thread nD τ).loc main_arg3) : S128x256.Idx → EReal) (ix2 k d)
abbrev fBp : Fin 256 → EReal := fun d => (m ((c : Thread nD τ).loc main_arg4) : S256.Idx → EReal) (ix1 d)
abbrev fW0 : Fin 256 → Fin 256 → EReal := fun d e => (m ((c : Thread nD τ).loc main_arg5) : S256x256.Idx → EReal) (ix2 d e)
abbrev fB0 : Fin 256 → EReal := fun e => (m ((c : Thread nD τ).loc main_arg6) : S256.Idx → EReal) (ix1 e)
abbrev fW1 : Fin 4 → Fin 256 → Fin 256 → EReal := fun s d e => (m ((c : Thread nD τ).loc main_arg7) : S4x256x256.Idx → EReal) (ix3 s d e)
abbrev fB1 : Fin 4 → Fin 256 → EReal := fun s e => (m ((c : Thread nD τ).loc main_arg8) : S4x256.Idx → EReal) (ix2 s e)
abbrev fWh : Fin 256 → Fin 128 → EReal := fun d o => (m ((c : Thread nD τ).loc main_arg9) : S256x128.Idx → EReal) (ix2 d o)
abbrev fBh : Fin 128 → EReal := fun o => (m ((c : Thread nD τ).loc main_arg10) : S128.Idx → EReal) (ix1 o)
abbrev fT : Fin 1024 → Fin 256 → EReal := Spec.T (fX m c) (fWp m c) (fBp m c) (fW0 m c)
abbrev fU : Fin 1024 → Fin 4 → Fin 256 → EReal := fun k => Ucol (fAf m c k) (fT m c) (fB0 m c) (fW1 m c)

/-- The summed snapshot biases. -/
theorem bsum_apply (e : Fin 256) :
    (V m c main_v5 : S1x256.Idx → Elt Ideal .f32) (ix2 (0 : Fin 1) e) = ∑ s : Fin 4, fB1 m c s e := by
  rw [V_v5]
  refine (shapeCast_a_1a_apply _ shapeCasts_S256_S1x256 0 e).trans ?_
  refine (hostReduceAdd_apply _ _ reducesTo_S4x256_S256_d0 h_S_ (ix1 e)).trans ?_
  have hR : S4x256.Reduces [0] S256 := by decide
  refine (Ideal.hostReduceAdd_single reducesTo_S4x256_S256_d0 hR _ _ (ix1 e)).trans ?_
  rw [show (constant (F := Ideal) S_ .f32 0x00000000#32 (Shape.Idx.first h_S_) : EReal) = 0 from Ideal.ofBits_zero_f32, zero_add]
  refine Finset.sum_congr rfl fun s _ => congrArg _ (funext fun a => Fin.ext ?_)
  rw [hR.lift_val]
  match a with
  | ⟨0, _⟩ => rfl
  | ⟨1, _⟩ => rfl

variable (t : Fin cfg0.N)

/-- The first layer's product as the body computes it. -/
theorem refT_fun : (fun k e => refT (iblk m c 0 t) (iblk m c 3 t) (iblk m c 4 t) (iblk m c 5 t) (ix2 k e)) = fT m c := by
  funext k e
  refine (refT_apply (iblk m c 0 t) (iblk m c 3 t) (iblk m c 4 t) (iblk m c 5 t) k e).trans ?_
  have h0 : (fun n k => iblk m c 0 t (ix2 n k)) = fX m c :=
    funext fun n => funext fun k => (blk0_apply m c t n k).trans (by rw [V_main_arg0])
  have h3 : (fun k d => iblk m c 3 t (ix2 k d)) = fWp m c :=
    funext fun k => funext fun d => (blk3_apply m c t k d).trans (by rw [V_main_arg3])
  have h4 : (fun d => iblk m c 4 t (ix2 (0 : Fin 1) d)) = fBp m c :=
    funext fun d => (blk4_apply m c t 0 d).trans (by rw [V_v2]; exact shapeCast_a_1a_apply _ _ 0 d)
  have h5 : (fun d e => iblk m c 5 t (ix2 d e)) = fW0 m c :=
    funext fun d => funext fun e => (blk5_apply m c t d e).trans (by rw [V_main_arg5])
  rw [h0, h3, h4, h5]

/-- Every node's products with snapshot s's weights. -/
theorem u_apply (k : Fin 1024) (s : Fin 4) (e : Fin 256) :
    k0_pay1 (F := Ideal) (iblk m c 0 t) (iblk m c 3 t) (iblk m c 4 t) (iblk m c 5 t) (iblk m c 1 t) (iblk m c 6 t) (iblk m c 7 t) (ix2 k (col s e))
      = fU m c k s e := by
  rw [pay1_eq]
  refine (rowsU_apply (iblk m c 1 t) (refT (iblk m c 0 t) (iblk m c 3 t) (iblk m c 4 t) (iblk m c 5 t)) (iblk m c 6 t) (iblk m c 7 t) k (col s e)).trans ?_
  have h1 : (fun k' => iblk m c 1 t (ix2 k k')) = fAf m c k :=
    funext fun k' => (blk1_apply m c t k k').trans (by rw [V_main_arg1])
  have h6 : (fun e => iblk m c 6 t (ix2 (0 : Fin 1) e)) = fB0 m c :=
    funext fun e => (blk6_apply m c t 0 e).trans (by rw [V_v3]; exact shapeCast_a_1a_apply _ _ 0 e)
  rw [h1, refT_fun m c t, h6]
  show _ = ∑ d : Fin 256, normRow (P1 (fAf m c k) (fT m c) (fB0 m c)) d * fW1 m c s d e
  exact Finset.sum_congr rfl fun d _ => congrArg (_ * ·) ((blk7_apply m c t d (col s e)).trans (w1flat_apply m c d s e))

abbrev rS (s : Nat) (h : ∀ a : Fin 3, (![s, 0, 0] : Fin 3 → Nat) a + S1x1024x1024.size a ≤ S4x1024x1024.size a) : Rect S4x1024x1024 :=
  Rect.unit (s := S4x1024x1024) ![s, 0, 0] S1x1024x1024.size h

theorem ldS_apply (X : Vec Ideal S4x1024x1024 .f32) (s : Nat) (h : ∀ a : Fin 3, (![s, 0, 0] : Fin 3 → Nat) a + S1x1024x1024.size a ≤ S4x1024x1024.size a)
    (s4 : Fin 4) (hs : s4.val = s) (n k : Fin 1024) :
    View.ld X (rS s h) (ix3 (0 : Fin 1) n k) = X (ix3 s4 n k) := by
  show X ((rS s h).idx (ix3 (0 : Fin 1) n k)) = X (ix3 s4 n k)
  refine congrArg X (funext fun a => Fin.ext ?_)
  match a with
  | ⟨0, _⟩ => show s + 1 * 0 = s4.val; omega
  | ⟨1, _⟩ => show 0 + 1 * n.val = n.val; omega
  | ⟨2, _⟩ => show 0 + 1 * k.val = k.val; omega

/-- What the one point leaves in the result buffer, as the network's formula. -/
theorem out_apply (n : Fin 1024) (o : Fin 128) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 n o)
      = result (fX m c) (fAf m c) (fAs m c) (fWp m c) (fBp m c) (fW0 m c) (fB0 m c) (fW1 m c) (fB1 m c) (fWh m c) (fBh m c) n o := by
  unfold out0_11
  rw [View.canon_unit_zero hz2]
  simp only [View.ld_unit_zero (S := S1024x128) hz2, View.ld_unit_zero (S := S128x256) hz2, View.ld_unit_zero (S := S1x256) hz2,
    View.ld_unit_zero (S := S256x256) hz2, View.ld_unit_zero (S := S1024x1024) hz2, View.ld_unit_zero (S := S256x1024) hz2,
    View.ld_unit_zero (S := S256x128) hz2, View.ld_unit_zero (S := S1x128) hz2]
  refine (pay4_apply _ _ _ _ _ _ _ _ _ _ n o).trans ?_
  show _ = out (whole (fAs m c) (fU m c)) (fun e => ∑ s : Fin 4, fB1 m c s e) (fWh m c) (fBh m c) n o
  refine out_congr (fun n e => ?_) (fun e => (blk8_apply m c t 0 e).trans (bsum_apply m c e))
    (fun d o => (blk9_apply m c t d o).trans (by rw [V_main_arg9])) (fun o => (blk10_apply m c t 0 o).trans (by rw [V_v6]; exact shapeCast_a_1a_apply _ _ 0 o)) n o
  unfold whole
  refine congrArg₂ (· + ·) (congrArg₂ (· + ·) (congrArg₂ (· + ·) ?_ ?_) ?_) ?_
  · rw [show (constant (F := Ideal) S1024x256 .f32 0x00000000#32 (ix2 n e) : EReal) = 0 from Ideal.ofBits_zero_f32, zero_add]
    exact Finset.sum_congr rfl fun k _ => congrArg₂ (· * ·)
      ((pay2_apply _ n k).trans ((ldS_apply _ 0 _ 0 rfl n k).trans ((blk2_apply m c t 0 n k).trans (by rw [V_main_arg2] <;> rfl))))
      ((pay3_apply _ _ _ _ _ _ _ k e).trans (u_apply m c t k 0 e))
  · exact Finset.sum_congr rfl fun k _ => congrArg₂ (· * ·)
      ((ldS_apply _ 1 _ 1 rfl n k).trans ((blk2_apply m c t 1 n k).trans (by rw [V_main_arg2] <;> rfl))) (u_apply m c t k 1 e)
  · exact Finset.sum_congr rfl fun k _ => congrArg₂ (· * ·)
      ((ldS_apply _ 2 _ 2 rfl n k).trans ((blk2_apply m c t 2 n k).trans (by rw [V_main_arg2] <;> rfl))) (u_apply m c t k 2 e)
  · exact Finset.sum_congr rfl fun k _ => congrArg₂ (· * ·)
      ((ldS_apply _ 3 _ 3 rfl n k).trans ((blk2_apply m c t 3 n k).trans (by rw [V_main_arg2] <;> rfl))) (u_apply m c t k 3 e)

/-- The result array the reference ends with. -/
def rOut : Buf (Elt Ideal) ((c : Thread nD τ).loc main_v7) :=
  resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem flushed_eq (hf : (cfg0.win 11).flush t = true) :
    (dats m 0 c).flushed 11 t = ((cfg0.win 11).blk t).view.read (Elt Ideal) (rOut m c) := by
  obtain ⟨e0, e1⟩ := idx11 t
  show (cfg0.win 11).cut (grid0.coords t) ((dats m 0 c).after 11 t) = _
  rw [after0_11]
  funext j
  obtain ⟨n, o, rfl⟩ : ∃ (n : Fin 1024) (o : Fin 128), j = ix2 n o := ⟨j 0, j 1, eq_ix2 j⟩
  refine (out_apply m c t n o).trans ?_
  show _ = rOut m c (((cfg0.win 11).blk t).view.emb (ix2 n o))
  have he : ((cfg0.win 11).blk t).view.emb (ix2 n o) = ix2 n o := by
    funext a; apply Fin.ext
    match a with
    | ⟨0, _⟩ => show win0_11.index t (0 : Fin 2) * 1024 + 1 * n.val = n.val; omega
    | ⟨1, _⟩ => show win0_11.index t (1 : Fin 2) * 128 + 1 * o.val = o.val; omega
  rw [he]
  rfl

theorem final : (dats m 0 c).arrAt 11 cfg0.N = rOut m c :=
  (dats m 0 c).arrAt_eq_of_cover 11 (rOut m c) (fun t hf => flushed_eq m c t hf) fun i =>
    ⟨t0_0, flush0_11 t0_0, by
      show i ∈ ((View.whole main_v7).slice (win0_11.rect t0_0)).set
      rw [View.set_slice_whole, Rect.mem_set_unit]
      intro a
      have h0 : (i 0 : Nat) < 1024 := (i 0).isLt
      have h1 : (i 1 : Nat) < 128 := (i 1).isLt
      match a with
      | ⟨0, _⟩ => show win0_11.index t0_0 0 * win0_11.size 0 ≤ (i 0 : Nat) ∧ (i 0 : Nat) < win0_11.index t0_0 0 * win0_11.size 0 + win0_11.xsize (grid0.coords t0_0) 0
                  rw [show win0_11.index t0_0 0 * win0_11.size 0 = 0 from by decide +kernel, show win0_11.xsize (grid0.coords t0_0) 0 = 1024 from by decide +kernel]; omega
      | ⟨1, _⟩ => show win0_11.index t0_0 1 * win0_11.size 1 ≤ (i 1 : Nat) ∧ (i 1 : Nat) < win0_11.index t0_0 1 * win0_11.size 1 + win0_11.xsize (grid0.coords t0_0) 1
                  rw [show win0_11.index t0_0 1 * win0_11.size 1 = 0 from by decide +kernel, show win0_11.xsize (grid0.coords t0_0) 1 = 128 from by decide +kernel]; omega⟩

/-- From the run's post: every argument array is as it began. -/
theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c))),
      ((h c).2 main_arg10 (Pipeline.mem_restRefs_of main_arg10 (by decide) (by decide))).trans (V_main_arg10 m c)⟩

/-- The run, read: the result array at the network's formula of the arguments, the arguments unchanged. -/
theorem run : θ_run defs (onTc (τ := τ) (main (F := Ideal))) ⟨m, fun _ => 0, ρ⟩ (fun r => ∀ c : Dev nD,
      r.2.mem ((c.tc : Thread nD τ).loc main_v7) = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 11).trans (final m c), args_kept m r h c⟩) (run_main m ρ)

end Cert.ReferenceIdeal.HandValue

end
-- ==== Proof.lean ====
/-
  The two-point fused network kernel against its one-point reference, at the exact (extended-real) instance.

  Both programs compute, for node features x, the full adjacency Af, four snapshot adjacencies As and four layers of
  weights and biases,
      out = normalise(relu(Σ_s As[s]·(normalise(relu(Af·(relu(x·Wpre + bpre)·W0) + b0))·W1[s]) + Σ_s b1[s]))·Wh + bh,
  where normalise scales each row by the reciprocal square root of the larger of its sum of squares and a floor.
  The reference forms every product over all 1024 nodes at one grid point. The kernel visits the nodes in two row
  blocks of 512: at each point it computes that block's rows of the second layer and adds that block's columns'
  share of the four snapshot products into a running sum kept in scratch memory; after the second point the sum is
  the reference's, up to the order of additions, which is immaterial on the extended reals (Spec.lean,
  `whole_eq_parts`). No distributive law, no cancellation and hence no finiteness of the inputs is used.

  The kernel reads the snapshot adjacencies through two windows on one array, so its run divides that array's
  ownership between the two windows (KI/Region.lean; LibSharedFrame.lean). The frames say each program runs to the end
  with its arguments unchanged; the idealisation rewrote nothing, so there is nothing to preserve.
-/
import proofs.«118711_g2000205832823720_pallasbulk_239_23_alg».proof.Defs
import proofs.«118711_g2000205832823720_pallasbulk_239_23_alg».proof.Proof.Gen.Kernel
import proofs.«118711_g2000205832823720_pallasbulk_239_23_alg».proof.Proof.Gen.KernelIdeal
import proofs.«118711_g2000205832823720_pallasbulk_239_23_alg».proof.Proof.Gen.ReferenceIdeal
import proofs.«118711_g2000205832823720_pallasbulk_239_23_alg».proof.Proof.Gen.ReferenceIdeal.Frame
import proofs.«118711_g2000205832823720_pallasbulk_239_23_alg».proof.Proof.Gen.Pre_finite_inputs
import proofs.«118711_g2000205832823720_pallasbulk_239_23_alg».proof.Proof.KB.Region
import proofs.«118711_g2000205832823720_pallasbulk_239_23_alg».proof.Proof.KI.Value
import proofs.«118711_g2000205832823720_pallasbulk_239_23_alg».proof.Proof.RI.Value
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both programs end with the network's formula of their argument arrays, and the arguments agree. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.Spec.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.HandValue.run m ρ, ?_⟩
  refine (θ_run Cert.ReferenceIdeal.defs _ _).mono (fun r h c => ⟨?_, (h c).2⟩) (Cert.ReferenceIdeal.HandValue.run m' ρ')
  obtain ⟨a0, a1, a2, a3, a4, a5, a6, a7, a8, a9, a10⟩ := hagree c
  rw [(h c).1, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
